-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S8x2048x2048 : Shape := ⟨3, ![8, 2048, 2048]⟩
abbrev S1024x1024 : Shape := ⟨2, ![1024, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S8x2048x1024 .f32) (main_arg1 : IVec S8x2048x2048 32) (main_arg2 : FVec F S1024x1024 .f32) (main_arg3 : FVec F S1024x1024 .f32) (main_arg4 : FVec F S1024x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x1024 .f32 := Host.absf main_arg2
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S8x2048x1024 : Shape := ⟨3, ![8, 2048, 1024]⟩
abbrev S8x2048x2048 : Shape := ⟨3, ![8, 2048, 2048]⟩
abbrev S1024x1024 : Shape := ⟨2, ![1024, 1024]⟩
abbrev S16384x1024 : Shape := ⟨2, ![16384, 1024]⟩
abbrev S512x1024 : Shape := ⟨2, ![512, 1024]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S256x1024 : Shape := ⟨2, ![256, 1024]⟩
abbrev S2048x1024 : Shape := ⟨2, ![2048, 1024]⟩
abbrev S256x2048 : Shape := ⟨2, ![256, 2048]⟩
abbrev S256 : Shape := ⟨1, ![256]⟩
abbrev S256x1 : Shape := ⟨2, ![256, 1]⟩

abbrev nBuf : Space → Nat
  | .hbm => 16
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S8x2048x2048, .i32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S16384x1024, .f32⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S16384x1024, .bf16⟩
  | .hbm, ⟨10, _⟩ => ⟨S16384x1024, .bf16⟩
  | .hbm, ⟨11, _⟩ => ⟨S16384x1024, .bf16⟩
  | .hbm, ⟨12, _⟩ => ⟨S8x2048x1024, .bf16⟩
  | .hbm, ⟨13, _⟩ => ⟨S8x2048x1024, .bf16⟩
  | .hbm, ⟨14, _⟩ => ⟨S8x2048x1024, .bf16⟩
  | .hbm, ⟨15, _⟩ => ⟨S8x2048x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x2048x1024, .bf16⟩
  | .local _ .vmem, ⟨14, _⟩ => ⟨S1x2048x1024, .bf16⟩
  | .local _ .vmem, ⟨15, _⟩ => ⟨S1x2048x1024, .bf16⟩
  | .local _ .vmem, ⟨16, _⟩ => ⟨S1x2048x1024, .bf16⟩
  | .local _ .vmem, ⟨17, _⟩ => ⟨S1x256x2048, .i32⟩
  | .local _ .vmem, ⟨18, _⟩ => ⟨S1x256x2048, .i32⟩
  | .local _ .vmem, ⟨19, _⟩ => ⟨S1x256x1024, .f32⟩
  | .local _ .vmem, ⟨20, _⟩ => ⟨S1x256x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2048x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x2048x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x256x2048 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S8x2048x1024_S16384x1024 : S8x2048x1024.ShapeCasts S16384x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S512x1024_S512x1024_0_0 : (Rect.unit (s := S512x1024) ![0, 0] S512x1024.size inb_S512x1024_S512x1024_0_0).PackedRows (EltTy.packing .bf16)
  shapeCasts_S16384x1024_S8x2048x1024 : S16384x1024.ShapeCasts S8x2048x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  reduces_S256x2048_S256 : S256x2048.Reduces [1] S256
  shapeCasts_S256_S256x1 : S256.ShapeCasts S256x1
  broadcasts_S256x1_S256x2048 : S256x1.Broadcasts S256x2048
  shapeCasts_S256x1024_S1x256x1024 : S256x1024.ShapeCasts S1x256x1024
  dot_S512x1024_S1024x1024_S512x1024_1_0_0_1_n_n_wf : DotDims.WF S512x1024 S1024x1024 S512x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S16384x1024.size a
  hwx0_4 : ∀ i : grid0.Coords, EltTy.bits .bf16 = 32 ∨ (Rect.block (s := S16384x1024) S512x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .bf16 = 32 ∨ (Rect.block (s := S16384x1024) S512x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1024.size a ≤ S16384x1024.size a
  hwx0_6 : ∀ i : grid0.Coords, EltTy.bits .bf16 = 32 ∨ (Rect.block (s := S16384x1024) S512x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x1024.size a ≤ S8x2048x1024.size a
  hwx1_0 : ∀ i : grid1.Coords, EltTy.bits .bf16 = 32 ∨ (Rect.block (s := S8x2048x1024) S1x256x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x2048x1024.size a ≤ S8x2048x1024.size a
  hwx1_1 : ∀ i : grid1.Coords, EltTy.bits .bf16 = 32 ∨ (Rect.block (s := S8x2048x1024) S1x2048x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x1024.size a ≤ S8x2048x1024.size a
  hwx1_2 : ∀ i : grid1.Coords, EltTy.bits .bf16 = 32 ∨ (Rect.block (s := S8x2048x1024) S1x2048x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x256x2048.size a ≤ S8x2048x2048.size a
  hwx1_3 : ∀ i : grid1.Coords, EltTy.bits .i32 = 32 ∨ (Rect.block (s := S8x2048x2048) S1x256x2048.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256x1024.size a ≤ S8x2048x1024.size a
  hwx1_4 : ∀ i : grid1.Coords, EltTy.bits .f32 = 32 ∨ (Rect.block (s := S8x2048x1024) S1x256x1024.size (cc1_transform_4 i) (hinb1_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S512x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v4_2) S512x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v5) S1x256x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x2048x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x2048x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg1) S1x256x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x256x1024.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x2048x1024 : Shape := ⟨3, ![8, 2048, 1024]⟩
abbrev S8x2048x2048 : Shape := ⟨3, ![8, 2048, 2048]⟩
abbrev S1024x1024 : Shape := ⟨2, ![1024, 1024]⟩
abbrev S_ : Shape := ⟨0, ![]⟩
abbrev S8x2048 : Shape := ⟨2, ![8, 2048]⟩
abbrev S8x2048x1 : Shape := ⟨3, ![8, 2048, 1]⟩

abbrev nBuf : Space → Nat
  | .hbm => 39
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x2048, .i32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S8x2048x2048, .f32⟩
  | .hbm, ⟨6, _⟩ => ⟨S8x2048x1024, .f32⟩
  | .hbm, ⟨7, _⟩ => ⟨S8x2048x1024, .f32⟩
  | .hbm, ⟨8, _⟩ => ⟨S8x2048x1024, .f32⟩
  | .hbm, ⟨9, _⟩ => ⟨S8x2048x2048, .f32⟩
  | .hbm, ⟨10, _⟩ => ⟨S_, .f32⟩
  | .hbm, ⟨11, _⟩ => ⟨S_, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S_, .f32⟩
  | .hbm, ⟨16, _⟩ => ⟨S8x2048, .f32⟩
  | .hbm, ⟨17, _⟩ => ⟨S_, .f32⟩
  | .hbm, ⟨18, _⟩ => ⟨S8x2048, .f32⟩
  | .hbm, ⟨19, _⟩ => ⟨S8x2048, .f32⟩
  | .hbm, ⟨20, _⟩ => ⟨S8x2048x1, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x2048, .f32⟩
  | .hbm, ⟨26, _⟩ => ⟨S8x2048x1, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S_, .f32⟩
  | .hbm, ⟨31, _⟩ => ⟨S8x2048, .f32⟩
  | .hbm, ⟨32, _⟩ => ⟨S8x2048x1, .f32⟩
  | .hbm, ⟨33, _⟩ => ⟨S_, .f32⟩
  | .hbm, ⟨34, _⟩ => ⟨S8x2048x1, .f32⟩
  | .hbm, ⟨35, _⟩ => ⟨S8x2048x1, .f32⟩
  | .hbm, ⟨36, _⟩ => ⟨S8x2048x2048, .f32⟩
  | .hbm, ⟨37, _⟩ => ⟨S8x2048x2048, .f32⟩
  | .hbm, ⟨38, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S_S8x2048x1 : S_.BroadcastsInDim S8x2048x1 (![] : Fin 0 → Fin S8x2048x1.rank)
  dot_S8x2048x1024_S1024x1024_S8x2048x1024_2_0_01_1_n_n_wf : DotDims.WF S8x2048x1024 S1024x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]

variable [Facts₀]

def dot_S8x2048x1024_S1024x1024_S8x2048x1024_2_0_01_1_n_n : DotDims S8x2048x1024 S1024x1024 S8x2048x1024 where
  lhsContracting := [2]
  rhsContracting := [0]
  lhsNonContracting := [0, 1]
  rhsNonContracting := [1]
  lhsBatch := []
  rhsBatch := []
  wf := dot_S8x2048x1024_S1024x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf

class Facts : Prop extends Facts₀ where

variable [Facts]
-- ==== Proof.Run.lean ====
/-
  The idealized kernel's run, with its RESULT named.

  @main is two stretches of host operations and two tiled regions. The contents of the TensorCore's buffers at each
  boundary form a fold through @main: `W0` at launch, `W1` after the first stretch (a reshape of `x` and the three
  weights' change of format), `W2` after the projection region, `W3` after the second stretch (three reshapes), `W4`
  after the attention region. Every weakly fair execution terminates, faults nowhere, and ends with every unscoped
  buffer at `W4`'s contents; in particular the result array `main_v8` ends at `W4 … main_v8`, and each argument
  array at what it was launched with.
-/
import proofs.«132157_j13958643712029_1_alg».proof.Proof.Gen.KernelIdeal.Frame

set_option maxRecDepth 16384

noncomputable section

namespace Cert.KernelIdeal.RunV

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, the result array at the last boundary's
    contents and the five argument arrays as launched. -/
theorem run_main : θ_run defs (onTc (τ := τ) (main (F := F))) ⟨m, fun _ => 0, ρ⟩ (fun r => ∀ c : Dev nD,
      r.2.mem ((c.tc : Thread nD τ).loc main_v8) = W4 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v8 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.KernelIdeal.RunV

end
-- ==== Proof.Stretches.lean ====
/-
  What the two stretches of host operations leave for the regions to read.

  Before the projection region the input `x` is re-laid from [8, 2048, 1024] to [16384, 1024] and the three weight
  matrices change float format (the identity on extended reals). Between the regions the three projections are
  re-laid back to [8, 2048, 1024]. The mask is touched by no operation and by no write-back, so the attention region
  finds it as launched.
-/
import proofs.«132157_j13958643712029_1_alg».proof.Proof.Gen.KernelIdeal.Frame
import Idealize.ShloMosaic.Lib.StableHlo.Run
import Idealize.ShloMosaic.PureOps.Ideal

set_option maxRecDepth 16384

noncomputable section

namespace Cert.KernelIdeal.StretchV

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- The projection region finds `x` re-laid as 16384 rows. -/
theorem V1_v0 (c : Dev nD) :
    V1 m ρ c main_v0 = shapeCast S16384x1024 (m ((c : Thread nD τ).loc main_arg0)) shapeCasts_S8x2048x1024_S16384x1024 := by
  show StableHlo.after hostOps0 (W0 m ρ c) (Proc.devRef .tc main_v0) = _
  after_results
  rfl

/-- It finds the first weight matrix with its float format changed. -/
theorem V1_v1 (c : Dev nD) :
    V1 m ρ c main_v1 = (truncf (F := Ideal) (s := S1024x1024) .bf16 (m ((c : Thread nD τ).loc main_arg2) : FVec Ideal S1024x1024 .f32) bitsLt_bf16_f32 : FVec Ideal S1024x1024 .bf16) := by
  show StableHlo.after hostOps0 (W0 m ρ c) (Proc.devRef .tc main_v1) = _
  after_results

theorem V1_v2 (c : Dev nD) :
    V1 m ρ c main_v2 = (truncf (F := Ideal) (s := S1024x1024) .bf16 (m ((c : Thread nD τ).loc main_arg3) : FVec Ideal S1024x1024 .f32) bitsLt_bf16_f32 : FVec Ideal S1024x1024 .bf16) := by
  show StableHlo.after hostOps0 (W0 m ρ c) (Proc.devRef .tc main_v2) = _
  after_results

theorem V1_v3 (c : Dev nD) :
    V1 m ρ c main_v3 = (truncf (F := Ideal) (s := S1024x1024) .bf16 (m ((c : Thread nD τ).loc main_arg4) : FVec Ideal S1024x1024 .f32) bitsLt_bf16_f32 : FVec Ideal S1024x1024 .bf16) := by
  show StableHlo.after hostOps0 (W0 m ρ c) (Proc.devRef .tc main_v3) = _
  after_results

/-- The attention region finds the first projection re-laid as 8 batches of 2048 rows. -/
theorem V3_v5 (c : Dev nD) :
    V3 m ρ c main_v5 = shapeCast S8x2048x1024 ((dat0 (V1 m ρ) c).arrAt 4 cfg0.N) shapeCasts_S16384x1024_S8x2048x1024 := by
  show StableHlo.after hostOps1 (W2 m ρ c) (Proc.devRef .tc main_v5) = _
  after_results
  exact congrArg (fun a => shapeCast S8x2048x1024 a shapeCasts_S16384x1024_S8x2048x1024) (W2_arr m ρ c 4)

theorem V3_v6 (c : Dev nD) :
    V3 m ρ c main_v6 = shapeCast S8x2048x1024 ((dat0 (V1 m ρ) c).arrAt 5 cfg0.N) shapeCasts_S16384x1024_S8x2048x1024 := by
  show StableHlo.after hostOps1 (W2 m ρ c) (Proc.devRef .tc main_v6) = _
  after_results
  exact congrArg (fun a => shapeCast S8x2048x1024 a shapeCasts_S16384x1024_S8x2048x1024) (W2_arr m ρ c 5)

theorem V3_v7 (c : Dev nD) :
    V3 m ρ c main_v7 = shapeCast S8x2048x1024 ((dat0 (V1 m ρ) c).arrAt 6 cfg0.N) shapeCasts_S16384x1024_S8x2048x1024 := by
  show StableHlo.after hostOps1 (W2 m ρ c) (Proc.devRef .tc main_v7) = _
  after_results
  exact congrArg (fun a => shapeCast S8x2048x1024 a shapeCasts_S16384x1024_S8x2048x1024) (W2_arr m ρ c 6)

/-- The attention region finds the mask as launched: no operation and no write-back touches it. -/
theorem V3_arg1 (c : Dev nD) : V3 m ρ c main_arg1 = m ((c : Thread nD τ).loc main_arg1) := by
  show StableHlo.after hostOps1 (W2 m ρ c) (Proc.devRef .tc main_arg1) = _
  after_results
  rw [W2_of_ne m ρ c main_arg1 (by decide)]
  show StableHlo.after hostOps0 (W0 m ρ c) (Proc.devRef .tc main_arg1) = _
  after_results

/-- The result array after the attention region is what that region's write-backs leave. -/
theorem W4_v8 (c : Dev nD) : W4 m ρ c (Proc.devRef .tc main_v8) = (dat1 (V3 m ρ) c).arrAt 4 cfg1.N :=
  W4_arr m ρ c 4

end Cert.KernelIdeal.StretchV

end
-- ==== Proof.LibPlainDot.lean ====
/-
  A plain matrix product read entry by entry, at the extended reals.

  Both the tiled unit's `tpu.matmul` into a zero accumulator and the host's `dot_general` are, at the ideal
  values, the sum over the dot's contraction index of the operands' products. The contraction index is a
  one-axis multi-index whose shape is computed from the dimension numbers; for the plain product of an
  `M × K` matrix with a `K × N` one (contract the left operand's columns against the right operand's
  rows, no batch axis) that index is just a number below `K`, and entry `(p, q)` of the product is
  `∑ k < K, l (p, k) · r (k, q)` — for every `M`, `K`, `N`, so a block of rows and the whole array are
  read by one and the same lemma.
-/
import Idealize.ShloMosaic.PureOps.Ideal.Laws
import Idealize.ShloMosaic.Lib.ValueIdx

noncomputable section

namespace Cert.PlainDot

open Idealize.ShloMosaic Idealize.ShloMosaic.ValueIdx

/-- The dimension numbers of a plain product: the left operand's axis 1 contracted against the right
    operand's axis 0, rows from the left, columns from the right, no batch axis. -/
structure IsPlain {M K N : Nat} (d : DotDims ⟨2, ![M, K]⟩ ⟨2, ![K, N]⟩ ⟨2, ![M, N]⟩) : Prop where
  lhsContracting : d.lhsContracting = [1]
  rhsContracting : d.rhsContracting = [0]
  lhsNonContracting : d.lhsNonContracting = [0]
  rhsNonContracting : d.rhsNonContracting = [1]
  lhsBatch : d.lhsBatch = []
  rhsBatch : d.rhsBatch = []

variable {M K N : Nat}

/-- The sum over the contraction multi-index of a plain product, at entry `(p, q)`, is the sum over
    `k < K` of `l (p, k) · r (k, q)`: the one-axis contraction index is re-indexed by its coordinate, and
    the operand indices the dimension numbers compute are `(p, k)` and `(k, q)`. -/
theorem sum_contr (d : DotDims ⟨2, ![M, K]⟩ ⟨2, ![K, N]⟩ ⟨2, ![M, N]⟩) (h : IsPlain d)
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  obtain ⟨h1, h2, h3, h4, h5, h6⟩ := h
  simp only at h1 h2 h3 h4 h5 h6
  subst h1 h2 h3 h4 h5 h6
  generalize hd : (⟨[1], [0], [0], [1], [], [], wf⟩ : DotDims ⟨2, ![M, K]⟩ ⟨2, ![K, N]⟩ ⟨2, ![M, N]⟩) = d
  have hlc : d.lhsContracting = [1] := by subst hd; rfl
  have hrc : d.rhsContracting = [0] := by subst hd; rfl
  have hrank : d.contr.rank = 1 := by subst hd; rfl
  have hsize : d.contr.size ⟨0, by omega⟩ = K := by subst hd; rfl
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k := funext fun a => Fin.ext (by
    match a with
    | ⟨0, _⟩ =>
      subst hd
      unfold DotDims.lhsIdx
      split
      · rename_i hb; exact absurd hb List.not_mem_nil
      · split
        · rfl
        · rename_i hn; exact absurd (List.mem_singleton.mpr (Fin.ext rfl)) hn
    | ⟨1, _⟩ => exact (d.lhsIdx_val_of_single hlc _ _).trans hk)
  have er : d.rhsIdx (ix2 p q) ((contrEquiv1 d K hrank hsize).symm k) = ix2 k q := funext fun a => Fin.ext (by
    match a with
    | ⟨0, _⟩ => exact (d.rhsIdx_val_of_single hrc _ _).trans hk
    | ⟨1, _⟩ =>
      subst hd
      unfold DotDims.rhsIdx
      split
      · rename_i hb; exact absurd hb List.not_mem_nil
      · split
        · rfl
        · rename_i hn; exact absurd (List.mem_singleton.mpr (Fin.ext rfl)) hn)
  rw [el, er]

/-- A `tpu.matmul` of a plain product into the zero accumulator, read at entry `(p, q)`. -/
theorem matmul_zero_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    matmul d prec l r (constant ⟨2, ![M, N]⟩ .f32 0x00000000#32) (ix2 p q) = ∑ k : Fin K, l (ix2 p k) * r (ix2 k q) :=
  (Ideal.matmul_constant_zero_apply d prec l r (ix2 p q)).trans (sum_contr d h l r p q)

/-- The host's `dot_general` of a plain product, read at entry `(p, q)`: the same sum. -/
theorem dotGeneral_apply (d : DotDims ⟨2, ![M, K]⟩ ⟨2, ![K, N]⟩ ⟨2, ![M, N]⟩) (h : IsPlain d) (prec : Option ContractPrecision)
    (l : FVec Ideal ⟨2, ![M, K]⟩ .f32) (r : FVec Ideal ⟨2, ![K, N]⟩ .f32) (p : Fin M) (q : Fin N) :
    Host.dotGeneral d prec l r (ix2 p q) = ∑ k : Fin K, l (ix2 p k) * r (ix2 k q) :=
  (Ideal.dotGeneral_apply d prec .single l r (ix2 p q)).trans (sum_contr d h l r p q)

end Cert.PlainDot

end
-- ==== Proof.ProjRegion.lean ====
/-
  The projection region: what it leaves in its three output arrays.

  The region's grid has 32 points. At point `t` it reads rows `512·t … 512·t + 511` of the re-laid input `x₂`
  (16384 rows of 1024 features) and the whole of each weight matrix, and writes the same 512 rows of the three
  products. The body's stored value is one matrix product into a zero accumulator, so entry `(p, q)` of a stored
  block is `∑ e, x₂ (512·t + p, e) · W (e, q)`: the block is the restriction to those rows of ONE function of the
  arrays as the region finds them, `rowsTimes x₂ W`. The 32 blocks tile the array, so after the region each output
  array IS that function.
-/
import proofs.«132157_j13958643712029_1_alg».proof.Proof.Gen.KernelIdeal.Frame
import proofs.«132157_j13958643712029_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.ProjV

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- Entry `(r, q)` of the product of the rows `a` with the matrix `W`. -/
def rowsTimes (a : S16384x1024.Idx → EReal) (W : S1024x1024.Idx → EReal) : S16384x1024.Idx → EReal :=
  fun i => ∑ e : Fin 1024, a (ix2 (i 0) e) * W (ix2 e (i 1))

theorem zero_offsets : (![0, 0] : Fin 2 → Nat) = fun _ => 0 := funext fun a => by fin_cases a <;> rfl

/-- The dimension numbers of the body's products are those of a plain matrix product. -/
theorem plain : Cert.PlainDot.IsPlain dot_S512x1024_S1024x1024_S512x1024_1_0_0_1_n_n := ⟨rfl, rfl, rfl, rfl, rfl, rfl⟩

/-- The stored value of the first product at entry `(p, q)`: the changes of float format are the identity, the
    accumulator is zero, and the contraction runs over the 1024 features. -/
theorem pay2_apply (x0 : Vec Ideal S512x1024 .f32) (w : Vec Ideal S1024x1024 .bf16) (p : Fin 512) (q : Fin 1024) :
    k0_pay2 (F := Ideal) x0 w (ix2 p q) = ∑ e : Fin 1024, x0 (ix2 p e) * w (ix2 e q) := by
  unfold k0_pay2 k0_pay1
  refine (Ideal.matmul_constant_zero_apply dot_S512x1024_S1024x1024_S512x1024_1_0_0_1_n_n none _ _ (ix2 p q)).trans ?_
  refine (Cert.PlainDot.sum_contr dot_S512x1024_S1024x1024_S512x1024_1_0_0_1_n_n plain
    (truncf (F := Ideal) .bf16 (shapeCast S512x1024 x0 shapeCasts_S512x1024_S512x1024) bitsLt_bf16_f32)
    (shapeCast S1024x1024 w shapeCasts_S1024x1024_S1024x1024) p q).trans ?_
  rw [shapeCast_self, shapeCast_self]
  rfl

/-- The other two stored values are the same term of their own weight block. -/
theorem pay3_apply (x0 : Vec Ideal S512x1024 .f32) (w : Vec Ideal S1024x1024 .bf16) (p : Fin 512) (q : Fin 1024) :
    k0_pay3 (F := Ideal) x0 w (ix2 p q) = ∑ e : Fin 1024, x0 (ix2 p e) * w (ix2 e q) := pay2_apply x0 w p q
theorem pay4_apply (x0 : Vec Ideal S512x1024 .f32) (w : Vec Ideal S1024x1024 .bf16) (p : Fin 512) (q : Fin 1024) :
    k0_pay4 (F := Ideal) x0 w (ix2 p q) = ∑ e : Fin 1024, x0 (ix2 p e) * w (ix2 e q) := pay2_apply x0 w p q

/-! ## The index maps, decided once over the 32 grid points -/

/-- The input rows and the three outputs move together along the rows (block index `t`), nothing moves along the
    features, and a weight's one block is the whole matrix. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

/-! ## The blocks tile the arrays -/

/-- An index of the array is in point `t`'s block of output window 4 iff each coordinate is in the block's range. -/
theorem mem_blk4 (t : Fin cfg0.N) (i : S16384x1024.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v4_0).slice (win0_4.rect t)).set ↔ _
  rw [View.set_slice_whole, Rect.mem_set_unit]
  exact Iff.rfl

/-- Row `r` of the array is in the block of point `r / 512`: the 32 blocks of 512 rows tile the 16384 rows. -/
theorem cover4 (i : S16384x1024.Idx) :
    ∃ t : Fin cfg0.N, (cfg0.win 4).flush t = true ∧ i ∈ ((cfg0.win 4).blk t).view.set := by
  have hi0 : (i 0).val < 16384 := (i 0).isLt
  have hi1 : (i 1).val < 1024 := (i 1).isLt
  have hN : grid0.N = 32 := N_0
  have hlt : (i 0).val / 512 < grid0.N := by omega
  obtain ⟨e00, e01, e10, e11, e20, e21, e30, e31, e40, e41, e50, e51, e60, e61⟩ := idx_facts ⟨(i 0).val / 512, hlt⟩
  refine ⟨⟨(i 0).val / 512, hlt⟩, flush0_4 _, ?_⟩
  rw [mem_blk4]
  intro a
  match a with
  | ⟨0, _⟩ =>
    show win0_4.index ⟨(i 0).val / 512, hlt⟩ (0 : Fin 2) * 512 ≤ (i 0).val
      ∧ (i 0).val < win0_4.index ⟨(i 0).val / 512, hlt⟩ (0 : Fin 2) * 512 + 512
    rw [e40]
    show (i 0).val / 512 * 512 ≤ (i 0).val ∧ (i 0).val < (i 0).val / 512 * 512 + 512
    omega
  | ⟨1, _⟩ =>
    show win0_4.index ⟨(i 0).val / 512, hlt⟩ (1 : Fin 2) * 1024 ≤ (i 1).val
      ∧ (i 1).val < win0_4.index ⟨(i 0).val / 512, hlt⟩ (1 : Fin 2) * 1024 + 1024
    rw [e41]
    omega

/-- An index of the array is in point `t`'s block of output window 5 iff each coordinate is in the block's range. -/
theorem mem_blk5 (t : Fin cfg0.N) (i : S16384x1024.Idx) :
    i ∈ ((cfg0.win 5).blk t).view.set ↔ ∀ a : Fin 2, win0_5.index t a * S512x1024.size a ≤ (i a).val
      ∧ (i a).val < win0_5.index t a * S512x1024.size a + S512x1024.size a := by
  show i ∈ ((View.whole main_v4_1).slice (win0_5.rect t)).set ↔ _
  rw [View.set_slice_whole, Rect.mem_set_unit]
  exact Iff.rfl

/-- Row `r` of the array is in the block of point `r / 512`: the 32 blocks of 512 rows tile the 16384 rows. -/
theorem cover5 (i : S16384x1024.Idx) :
    ∃ t : Fin cfg0.N, (cfg0.win 5).flush t = true ∧ i ∈ ((cfg0.win 5).blk t).view.set := by
  have hi0 : (i 0).val < 16384 := (i 0).isLt
  have hi1 : (i 1).val < 1024 := (i 1).isLt
  have hN : grid0.N = 32 := N_0
  have hlt : (i 0).val / 512 < grid0.N := by omega
  obtain ⟨e00, e01, e10, e11, e20, e21, e30, e31, e40, e41, e50, e51, e60, e61⟩ := idx_facts ⟨(i 0).val / 512, hlt⟩
  refine ⟨⟨(i 0).val / 512, hlt⟩, flush0_5 _, ?_⟩
  rw [mem_blk5]
  intro a
  match a with
  | ⟨0, _⟩ =>
    show win0_5.index ⟨(i 0).val / 512, hlt⟩ (0 : Fin 2) * 512 ≤ (i 0).val
      ∧ (i 0).val < win0_5.index ⟨(i 0).val / 512, hlt⟩ (0 : Fin 2) * 512 + 512
    rw [e50]
    show (i 0).val / 512 * 512 ≤ (i 0).val ∧ (i 0).val < (i 0).val / 512 * 512 + 512
    omega
  | ⟨1, _⟩ =>
    show win0_5.index ⟨(i 0).val / 512, hlt⟩ (1 : Fin 2) * 1024 ≤ (i 1).val
      ∧ (i 1).val < win0_5.index ⟨(i 0).val / 512, hlt⟩ (1 : Fin 2) * 1024 + 1024
    rw [e51]
    omega

/-- An index of the array is in point `t`'s block of output window 6 iff each coordinate is in the block's range. -/
theorem mem_blk6 (t : Fin cfg0.N) (i : S16384x1024.Idx) :
    i ∈ ((cfg0.win 6).blk t).view.set ↔ ∀ a : Fin 2, win0_6.index t a * S512x1024.size a ≤ (i a).val
      ∧ (i a).val < win0_6.index t a * S512x1024.size a + S512x1024.size a := by
  show i ∈ ((View.whole main_v4_2).slice (win0_6.rect t)).set ↔ _
  rw [View.set_slice_whole, Rect.mem_set_unit]
  exact Iff.rfl

/-- Row `r` of the array is in the block of point `r / 512`: the 32 blocks of 512 rows tile the 16384 rows. -/
theorem cover6 (i : S16384x1024.Idx) :
    ∃ t : Fin cfg0.N, (cfg0.win 6).flush t = true ∧ i ∈ ((cfg0.win 6).blk t).view.set := by
  have hi0 : (i 0).val < 16384 := (i 0).isLt
  have hi1 : (i 1).val < 1024 := (i 1).isLt
  have hN : grid0.N = 32 := N_0
  have hlt : (i 0).val / 512 < grid0.N := by omega
  obtain ⟨e00, e01, e10, e11, e20, e21, e30, e31, e40, e41, e50, e51, e60, e61⟩ := idx_facts ⟨(i 0).val / 512, hlt⟩
  refine ⟨⟨(i 0).val / 512, hlt⟩, flush0_6 _, ?_⟩
  rw [mem_blk6]
  intro a
  match a with
  | ⟨0, _⟩ =>
    show win0_6.index ⟨(i 0).val / 512, hlt⟩ (0 : Fin 2) * 512 ≤ (i 0).val
      ∧ (i 0).val < win0_6.index ⟨(i 0).val / 512, hlt⟩ (0 : Fin 2) * 512 + 512
    rw [e60]
    show (i 0).val / 512 * 512 ≤ (i 0).val ∧ (i 0).val < (i 0).val / 512 * 512 + 512
    omega
  | ⟨1, _⟩ =>
    show win0_6.index ⟨(i 0).val / 512, hlt⟩ (1 : Fin 2) * 1024 ≤ (i 1).val
      ∧ (i 1).val < win0_6.index ⟨(i 0).val / 512, hlt⟩ (1 : Fin 2) * 1024 + 1024
    rw [e61]
    omega

section Region

variable (V : (c : Dev nD) → (b : Ref sig .tc) → Buf (Elt Ideal) ((c : Thread nD τ).loc b))

/-- WHAT POINT `t` WRITES BACK into the first output is block `t` of the rows of `x₂` times the first weight. -/
theorem flushed4 (c : Dev nD) (t : Fin cfg0.N) :
    (dat0 V c).flushed 4 t = ((cfg0.win 4).blk t).view.read (Elt Ideal) (rowsTimes (V c main_v0) (V c main_v1)) := by
  show (cfg0.win 4).cut (grid0.coords t) ((dat0 V c).after 4 t) = _
  rw [after0_4]
  unfold out0_4
  rw [View.canon_unit_zero zero_offsets]
  simp only [View.ld_unit_zero (S := S512x1024) zero_offsets, View.ld_unit_zero (S := S1024x1024) zero_offsets]
  obtain ⟨e00, e01, e10, e11, -, -, -, -, e40, e41, -⟩ := idx_facts t
  funext j
  refine ((congrArg (k0_pay2 (F := Ideal) (iblk0 V c 0 t) (iblk0 V c 1 t)) (eq_ix2 j)).trans
    (pay2_apply (iblk0 V c 0 t) (iblk0 V c 1 t) (j 0) (j 1))).trans ?_
  show ∑ e : Fin 1024, (show EReal from V c main_v0 (((cfg0.win 0).blk t).view.emb (ix2 (j 0) e)))
        * (show EReal from V c main_v1 (((cfg0.win 1).blk t).view.emb (ix2 e (j 1))))
      = ∑ e : Fin 1024, (show EReal from V c main_v0 (ix2 ((((cfg0.win 4).blk t).view.emb j) 0) e))
        * (show EReal from V c main_v1 (ix2 e ((((cfg0.win 4).blk t).view.emb j) 1)))
  refine Finset.sum_congr rfl fun e _ => ?_
  have hj0 : (j 0).val < 512 := (j 0).isLt
  have hj1 : (j 1).val < 1024 := (j 1).isLt
  have h0 : ((cfg0.win 0).blk t).view.emb (ix2 (j 0) e) = ix2 ((((cfg0.win 4).blk t).view.emb j) 0) e := by
    funext a; apply Fin.ext
    match a with
    | ⟨0, _⟩ => show win0_0.index t (0 : Fin 2) * 512 + 1 * (j 0).val = win0_4.index t (0 : Fin 2) * 512 + 1 * (j 0).val; omega
    | ⟨1, _⟩ => show win0_0.index t (1 : Fin 2) * 1024 + 1 * e.val = e.val; omega
  have h1 : ((cfg0.win 1).blk t).view.emb (ix2 e (j 1)) = ix2 e ((((cfg0.win 4).blk t).view.emb j) 1) := by
    funext a; apply Fin.ext
    match a with
    | ⟨0, _⟩ => show win0_1.index t (0 : Fin 2) * 1024 + 1 * e.val = e.val; omega
    | ⟨1, _⟩ => show win0_1.index t (1 : Fin 2) * 1024 + 1 * (j 1).val = win0_4.index t (1 : Fin 2) * 1024 + 1 * (j 1).val; omega
  rw [h0, h1]
  rfl

/-- The same for output 2 (window 5), with its own weight matrix. -/
theorem flushed5 (c : Dev nD) (t : Fin cfg0.N) :
    (dat0 V c).flushed 5 t = ((cfg0.win 5).blk t).view.read (Elt Ideal) (rowsTimes (V c main_v0) (V c main_v2)) := by
  show (cfg0.win 5).cut (grid0.coords t) ((dat0 V c).after 5 t) = _
  rw [after0_5]
  unfold out0_5
  rw [View.canon_unit_zero zero_offsets]
  simp only [View.ld_unit_zero (S := S512x1024) zero_offsets, View.ld_unit_zero (S := S1024x1024) zero_offsets]
  obtain ⟨e00, e01, e10, e11, e20, e21, e30, e31, e40, e41, e50, e51, e60, e61⟩ := idx_facts t
  funext j
  refine ((congrArg (k0_pay3 (F := Ideal) (iblk0 V c 0 t) (iblk0 V c 2 t)) (eq_ix2 j)).trans
    (pay3_apply (iblk0 V c 0 t) (iblk0 V c 2 t) (j 0) (j 1))).trans ?_
  show ∑ e : Fin 1024, (show EReal from V c main_v0 (((cfg0.win 0).blk t).view.emb (ix2 (j 0) e)))
        * (show EReal from V c main_v2 (((cfg0.win 2).blk t).view.emb (ix2 e (j 1))))
      = ∑ e : Fin 1024, (show EReal from V c main_v0 (ix2 ((((cfg0.win 5).blk t).view.emb j) 0) e))
        * (show EReal from V c main_v2 (ix2 e ((((cfg0.win 5).blk t).view.emb j) 1)))
  refine Finset.sum_congr rfl fun e _ => ?_
  have hj0 : (j 0).val < 512 := (j 0).isLt
  have hj1 : (j 1).val < 1024 := (j 1).isLt
  have h0 : ((cfg0.win 0).blk t).view.emb (ix2 (j 0) e) = ix2 ((((cfg0.win 5).blk t).view.emb j) 0) e := by
    funext a; apply Fin.ext
    match a with
    | ⟨0, _⟩ => show win0_0.index t (0 : Fin 2) * 512 + 1 * (j 0).val = win0_5.index t (0 : Fin 2) * 512 + 1 * (j 0).val; omega
    | ⟨1, _⟩ => show win0_0.index t (1 : Fin 2) * 1024 + 1 * e.val = e.val; omega
  have h1 : ((cfg0.win 2).blk t).view.emb (ix2 e (j 1)) = ix2 e ((((cfg0.win 5).blk t).view.emb j) 1) := by
    funext a; apply Fin.ext
    match a with
    | ⟨0, _⟩ => show win0_2.index t (0 : Fin 2) * 1024 + 1 * e.val = e.val; omega
    | ⟨1, _⟩ => show win0_2.index t (1 : Fin 2) * 1024 + 1 * (j 1).val = win0_5.index t (1 : Fin 2) * 1024 + 1 * (j 1).val; omega
  rw [h0, h1]
  rfl

/-- The same for output 3 (window 6), with its own weight matrix. -/
theorem flushed6 (c : Dev nD) (t : Fin cfg0.N) :
    (dat0 V c).flushed 6 t = ((cfg0.win 6).blk t).view.read (Elt Ideal) (rowsTimes (V c main_v0) (V c main_v3)) := by
  show (cfg0.win 6).cut (grid0.coords t) ((dat0 V c).after 6 t) = _
  rw [after0_6]
  unfold out0_6
  rw [View.canon_unit_zero zero_offsets]
  simp only [View.ld_unit_zero (S := S512x1024) zero_offsets, View.ld_unit_zero (S := S1024x1024) zero_offsets]
  obtain ⟨e00, e01, e10, e11, e20, e21, e30, e31, e40, e41, e50, e51, e60, e61⟩ := idx_facts t
  funext j
  refine ((congrArg (k0_pay4 (F := Ideal) (iblk0 V c 0 t) (iblk0 V c 3 t)) (eq_ix2 j)).trans
    (pay4_apply (iblk0 V c 0 t) (iblk0 V c 3 t) (j 0) (j 1))).trans ?_
  show ∑ e : Fin 1024, (show EReal from V c main_v0 (((cfg0.win 0).blk t).view.emb (ix2 (j 0) e)))
        * (show EReal from V c main_v3 (((cfg0.win 3).blk t).view.emb (ix2 e (j 1))))
      = ∑ e : Fin 1024, (show EReal from V c main_v0 (ix2 ((((cfg0.win 6).blk t).view.emb j) 0) e))
        * (show EReal from V c main_v3 (ix2 e ((((cfg0.win 6).blk t).view.emb j) 1)))
  refine Finset.sum_congr rfl fun e _ => ?_
  have hj0 : (j 0).val < 512 := (j 0).isLt
  have hj1 : (j 1).val < 1024 := (j 1).isLt
  have h0 : ((cfg0.win 0).blk t).view.emb (ix2 (j 0) e) = ix2 ((((cfg0.win 6).blk t).view.emb j) 0) e := by
    funext a; apply Fin.ext
    match a with
    | ⟨0, _⟩ => show win0_0.index t (0 : Fin 2) * 512 + 1 * (j 0).val = win0_6.index t (0 : Fin 2) * 512 + 1 * (j 0).val; omega
    | ⟨1, _⟩ => show win0_0.index t (1 : Fin 2) * 1024 + 1 * e.val = e.val; omega
  have h1 : ((cfg0.win 3).blk t).view.emb (ix2 e (j 1)) = ix2 e ((((cfg0.win 6).blk t).view.emb j) 1) := by
    funext a; apply Fin.ext
    match a with
    | ⟨0, _⟩ => show win0_3.index t (0 : Fin 2) * 1024 + 1 * e.val = e.val; omega
    | ⟨1, _⟩ => show win0_3.index t (1 : Fin 2) * 1024 + 1 * (j 1).val = win0_6.index t (1 : Fin 2) * 1024 + 1 * (j 1).val; omega
  rw [h0, h1]
  rfl

/-- THE ARRAY of output window 4 after the region: the rows of `x₂` times the first weight matrix, entry by entry. -/
theorem final4 (c : Dev nD) : (dat0 V c).arrAt 4 cfg0.N = rowsTimes (V c main_v0) (V c main_v1) :=
  (dat0 V c).arrAt_eq_of_cover 4 _ (fun t _ => flushed4 V c t) cover4

/-- THE ARRAY of output window 5 after the region: the rows of `x₂` times the second weight matrix, entry by entry. -/
theorem final5 (c : Dev nD) : (dat0 V c).arrAt 5 cfg0.N = rowsTimes (V c main_v0) (V c main_v2) :=
  (dat0 V c).arrAt_eq_of_cover 5 _ (fun t _ => flushed5 V c t) cover5

/-- THE ARRAY of output window 6 after the region: the rows of `x₂` times the third weight matrix, entry by entry. -/
theorem final6 (c : Dev nD) : (dat0 V c).arrAt 6 cfg0.N = rowsTimes (V c main_v0) (V c main_v3) :=
  (dat0 V c).arrAt_eq_of_cover 6 _ (fun t _ => flushed6 V c t) cover6

end Region

end Cert.KernelIdeal.ProjV

end
-- ==== Proof.Spec.lean ====
/-
  Masked attention of ONE query row against all the keys, on the extended reals.

  A query row `q` (its `D` features), the keys `k` and the values `v` (`S` rows of `D` features each) and the
  row `μ` of the mask (one number per key) give one output row. Writing `σ` for the scaling of a score:

    z_u  = σ (∑ e, q e · k u e) · μ u                  the masked, scaled scores
    M    = the maximum of the z_u (from −∞)
    e_u  = exp (z_u − M)                               the shifted exponentials
    s_u  = e_u / (∑ e_•) · μ u                         the softmax, masked AGAIN
    r_u  = s_u / (∑ s_• + ε)                           renormalised, with ε in the denominator
    out d = ∑ u, r_u · v u d

  Both programs compute exactly this, with two spellings of `σ`: a product with the float `2⁻⁵`, and a quotient by
  the square root of the float `1024`. They are one function of every extended real (`kScale_eq_rScale`), because
  `√1024 = 32` exactly and a quotient by a nonzero real is the product with its reciprocal; and a maximum taken
  once more against −∞ is unchanged (`max_negInf_rowMax`).

  A projection `x · W` read at one entry is `proj`.
-/
import Idealize.ShloMosaic.PureOps.Ideal
import Idealize.ShloMosaic.Lib.ValueIdx
import Mathlib.Data.Finset.Fold

noncomputable section

open scoped BigOperators

namespace Cert.Attn

open Idealize.ShloMosaic Idealize.ShloMosaic.ValueIdx

variable {S D : ℕ}

/-- The maximum of a row, folded from the float word of −∞. -/
def rowMax (z : Fin S → EReal) : EReal :=
  (Finset.univ : Finset (Fin S)).fold max (Ideal.ofBits .f32 0xFF800000#32) z

/-- The exponential of a row's entry shifted by the row's maximum. -/
def expShift (z : Fin S → EReal) (t : Fin S) : EReal := Ideal.exp (z t - rowMax z)

/-- The softmax of the row `z` at `t`, masked again by `μ`. -/
def remasked (z μ : Fin S → EReal) (t : Fin S) : EReal :=
  Ideal.div (expShift z t) (∑ u : Fin S, expShift z u) * μ t

/-- The re-masked softmax renormalised: divided by its row sum plus `ε`. -/
def weights (ε : EReal) (z μ : Fin S → EReal) (t : Fin S) : EReal :=
  Ideal.div (remasked z μ t) ((∑ u : Fin S, remasked z μ u) + ε)

/-- The masked, scaled scores of a query row against every key. -/
def scores (σ : EReal → EReal) (q : Fin D → EReal) (k : Fin S → Fin D → EReal) (μ : Fin S → EReal) (u : Fin S) : EReal :=
  σ (∑ e : Fin D, q e * k u e) * μ u

/-- One output row of masked attention. -/
def attendRow (σ : EReal → EReal) (ε : EReal) (q : Fin D → EReal) (k v : Fin S → Fin D → EReal) (μ : Fin S → EReal)
    (d : Fin D) : EReal :=
  ∑ t : Fin S, weights ε (scores σ q k μ) μ t * v t d

/-- The float word of `ε` (9.99999968e-21), the same word in both programs: never evaluated. -/
def eps : EReal := Ideal.ofBits .f32 0x1E3CE508#32

/-- The score scaling as a product with the float `0.03125`. -/
def kScale (x : EReal) : EReal := x * Ideal.ofBits .f32 0x3D000000#32

/-- The score scaling as a quotient by the square root of the float `1024`. -/
def rScale (x : EReal) : EReal := Ideal.div x (Ideal.sqrt (Ideal.ofBits .f32 0x44800000#32))

/-- Entry `(b, s, d)` of the projection of `x : [B, T, E]` by `W : [E, N]`. -/
def proj {B T E N : ℕ} (x : (⟨3, ![B, T, E]⟩ : Shape).Idx → EReal) (W : (⟨2, ![E, N]⟩ : Shape).Idx → EReal)
    (b : Fin B) (s : Fin T) (d : Fin N) : EReal :=
  ∑ e : Fin E, x (ix3 b s e) * W (ix2 e d)

/-! ## The two laws that join the two programs -/

/-- The float `1024` denotes the real 1024. -/
theorem ofBits_1024 : Ideal.ofBits .f32 0x44800000#32 = ((1024 : ℝ) : EReal) := by
  simp [Ideal.ofBits, Ideal.ieee, -EReal.coe_mul]; norm_num

/-- The float `0.03125` denotes the real 1/32. -/
theorem ofBits_inv32 : Ideal.ofBits .f32 0x3D000000#32 = (((1 : ℝ) / 32 : ℝ) : EReal) := by
  simp [Ideal.ofBits, Ideal.ieee, -EReal.coe_mul]; norm_num

/-- `√1024 = 32`: 1024 is the square of 32. -/
theorem sqrt_1024 : Real.sqrt 1024 = 32 := by
  rw [show (1024 : ℝ) = 32 ^ 2 by norm_num]
  exact Real.sqrt_sq (by norm_num)

/-- A product with `2⁻⁵` and a quotient by `√1024` are one function of every extended real. -/
theorem kScale_eq_rScale : (kScale : EReal → EReal) = rScale := by
  funext x
  unfold kScale rScale
  rw [ofBits_1024, ofBits_inv32, Ideal.sqrt_coe, if_neg (by norm_num), sqrt_1024,
    Ideal.div_coe (by norm_num : (32 : ℝ) ≠ 0)]

/-- The maximum of a row is at least the word it is folded from, so taking the maximum against that word once
    more changes nothing. -/
theorem max_negInf_rowMax (z : Fin S → EReal) : max (Ideal.ofBits .f32 0xFF800000#32) (rowMax z) = rowMax z :=
  max_eq_right (by unfold rowMax; exact (Finset.le_fold_max _).mpr (Or.inl le_rfl))

end Cert.Attn

end
-- ==== Proof.LibIndexReads.lean ====
/-
  General readings of array operations at one entry, over the extended reals or over any element type: a matrix product
  against a transposed right operand, a column spread along rows, an array of rows grouped into batches and back, a
  trailing unit axis added to a matrix, and the sum (of squares) along the last axis of a rank-3 array. Each says which
  entry of the operand an entry of the result reads, with indices written by their coordinates.
-/
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.Lib.IndexReads

open Idealize.ShloMosaic Idealize.ShloMosaic.ValueIdx

/-! ## A matrix product with the right operand transposed -/

/-- A matrix product A · Bᵀ: both operands contract their SECOND axis, and the accumulator is the zero array. The entry
    (a, b) of the result is the sum over the shared coordinate c of A[a, c] · B[b, c]: the accumulator contributes 0,
    and the sum over the one-axis contraction index is the sum over that axis's coordinate. -/
theorem matmul_nt_apply {m n k : Nat} {φ₁ φ₂ : FTy}
    (w : DotDims.WF ⟨2, ![m, k]⟩ ⟨2, ![n, k]⟩ ⟨2, ![m, n]⟩ [1] [1] [0] [0] [] [])
    (prec : Option ContractPrecision)
    (A : FVec Ideal ⟨2, ![m, k]⟩ φ₁) (B : FVec Ideal ⟨2, ![n, k]⟩ φ₂) (a : Fin m) (b : Fin n) :
    matmul (⟨[1], [1], [0], [0], [], [], w⟩ : DotDims _ _ _) prec A B (constant (F := Ideal) _ .f32 0x00000000#32) (ix2 a b)
      = ∑ c : Fin k, A (ix2 a c) * B (ix2 b c) := by
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  -- the left operand is read at (a, c): its row from the result's row, its column from the contraction
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  -- the right operand is read at (b, c): its ROW from the result's column
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

/-! ## A column spread along the rows -/

/-- An `[a, 1]` column broadcast to `[a, b]` reads, at `(p, c)`, the column's entry of row `p`: the unit axis is read
    at 0 whatever `c` is. (The row form, `[1, b]` to `[a, b]`, is the library's `broadcastTo_1b_ab_apply`.) -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    -- if the column has one row only, that row is row 0
    show p.val = if a = 1 then 0 else p.val
    split
    · have := p.isLt; omega
    · rfl
  | ⟨1, _⟩ => rfl

/-! ## Rows grouped into batches, and back -/

/-- An `[A, B, k]` array viewed as the `[N, k]` array of all its rows (`N = A · B`): row `q = p · B + n` is row `n` of
    batch `p`, because both have the same position in row-major order. -/
theorem flatten_apply {α : Type} {A B N k : ℕ} (x : (⟨3, ![A, B, k]⟩ : Shape).Idx → α)
    (h : (⟨3, ![A, B, k]⟩ : Shape).ShapeCasts ⟨2, ![N, k]⟩)
    (q : Fin N) (p : Fin A) (n : Fin B) (d : Fin k) (hq : q.val = p.val * B + n.val) :
    shapeCast ⟨2, ![N, k]⟩ x h (ix2 q d) = x (ix3 p n d) :=
  shapeCast_apply x h _ _ (by
    rw [Shape.rowMajor_val_three, Shape.rowMajor_val_two]
    show (p.val * B + n.val) * k + d.val = q.val * k + d.val
    rw [hq])

/-- The other direction: the `[N, k]` array of rows viewed as `[A, B, k]` reads, at row `n` of batch `p`, row
    `q = p · B + n`. -/
theorem unflatten_apply {α : Type} {A B N k : ℕ} (x : (⟨2, ![N, k]⟩ : Shape).Idx → α)
    (h : (⟨2, ![N, k]⟩ : Shape).ShapeCasts ⟨3, ![A, B, k]⟩)
    (q : Fin N) (p : Fin A) (n : Fin B) (d : Fin k) (hq : q.val = p.val * B + n.val) :
    shapeCast ⟨3, ![A, B, k]⟩ x h (ix3 p n d) = x (ix2 q d) :=
  shapeCast_apply x h _ _ (by
    rw [Shape.rowMajor_val_three, Shape.rowMajor_val_two]
    show q.val * k + d.val = (p.val * B + n.val) * k + d.val
    rw [hq])

/-! ## A trailing unit axis -/

/-- An `[a, b]` array given a trailing unit axis (a sum taken with the summed axis kept) reads, at `(p, n, u)`, its
    entry `(p, n)`. -/
theorem keepdims_apply {α : Type} {a b : ℕ} (Y : (⟨2, ![a, b]⟩ : Shape).Idx → α)
    (h : (⟨2, ![a, b]⟩ : Shape).BroadcastsInDim ⟨3, ![a, b, 1]⟩ ![0, 1]) (p : Fin a) (n : Fin b) (u : Fin 1) :
    broadcastInDim ⟨3, ![a, b, 1]⟩ ![0, 1] h Y (ix3 p n u) = Y (ix2 p n) :=
  broadcastInDim_apply _ h Y _ _ fun ax => by
    match ax with
    | ⟨0, _⟩ =>
      show p.val = if a = 1 then 0 else p.val
      split
      · have := p.isLt; omega
      · rfl
    | ⟨1, _⟩ =>
      show n.val = if b = 1 then 0 else n.val
      split
      · have := n.isLt; omega
      · rfl

/-! ## Sums along the last axis of a rank-3 array -/

/-- The host's sum along the last axis of an `[A, B, K]` array, at `(p, n)`: the initial value plus the sum over `e` of
    the entry `(p, n, e)`. The reduced index with the summed coordinate put back on the last axis is `(p, n, e)`. -/
theorem hostReduceAdd_last3_apply {A B K : ℕ} {φ : FTy} {u : Shape} (Z : FVec Ideal ⟨3, ![A, B, K]⟩ φ)
    (init : u.Idx → Ideal φ) (h' : (⟨3, ![A, B, K]⟩ : Shape).ReducesTo [2] ⟨2, ![A, B]⟩)
    (hR : (⟨3, ![A, B, K]⟩ : Shape).Reduces [2] ⟨2, ![A, B]⟩) (hu : 0 < u.numel) (p : Fin A) (n : Fin B) :
    Host.reduceAdd (F := Ideal) Z init h' hu (ix2 p n) = init (Shape.Idx.first hu) + ∑ e : Fin K, Z (ix3 p n e) := by
  rw [hostReduceAdd_apply, Ideal.hostReduceAdd_single h' hR]
  refine congrArg (init (Shape.Idx.first hu) + ·) ?_
  show ∑ e : Fin K, Z (hR.lift (ix2 p n) e) = _
  refine Finset.sum_congr rfl fun e _ => ?_
  have he : hR.lift (ix2 p n) e = ix3 p n e := by
    funext ax; apply Fin.ext
    match ax with
    | ⟨0, _⟩ => rfl
    | ⟨1, _⟩ => rfl
    | ⟨2, _⟩ => rfl
  rw [he]

/-- The host's sum of squares along the last axis, from the zero word, of an array first widened to f32: at `(p, n)` the
    sum over `e` of the square of the entry `(p, n, e)`. The widening is the identity on extended reals and the zero word
    is 0. -/
theorem hostSumSq_last3_apply {A B K : ℕ} {φ : FTy} {u : Shape} (X : FVec Ideal ⟨3, ![A, B, K]⟩ φ)
    (hlt : φ.bits < FTy.bits .f32) (h' : (⟨3, ![A, B, K]⟩ : Shape).ReducesTo [2] ⟨2, ![A, B]⟩)
    (hR : (⟨3, ![A, B, K]⟩ : Shape).Reduces [2] ⟨2, ![A, B]⟩) (hu : 0 < u.numel) (p : Fin A) (n : Fin B) :
    Host.reduceAdd (F := Ideal) (mulf (extf .f32 X hlt) (extf .f32 X hlt)) (constant (F := Ideal) u .f32 0x00000000#32) h' hu
        (ix2 p n)
      = ∑ e : Fin K, X (ix3 p n e) * X (ix3 p n e) := by
  rw [hostReduceAdd_last3_apply _ _ h' hR hu p n]
  show Ideal.ofBits .f32 0x00000000#32 + ∑ e : Fin K, X (ix3 p n e) * X (ix3 p n e) = _
  rw [Ideal.ofBits_zero_f32, zero_add]

end Cert.Lib.IndexReads

end
-- ==== Proof.LibRowLayer.lean ====
/-
  Rows of a matrix read entry by entry, at the extended reals: what a layer of the form
  "features times a slice of a weight stack, plus a bias, then something along each row" needs, for a
  block of rows inside a tiled unit and for the whole array on the host alike.

  * `blockDot`: the product of an `[M, K]` block with slice 0 of a `[1, K, N]` weight slice viewed as `[K, N]`
    (both operands passed through a change of float format, which is the identity here), into a zero
    accumulator, is at `(p, q)` the sum over `c < K` of `x (p, c) · w (0, c, q)`.
  * the column forms of keepdims: a vector `[a]` viewed as a column `[a, 1]`, and a column spread along the
    rows to `[a, b]`.
  * a reduction along the rows (axis 1 of `[a, b]`) read at row `p`: a sum is `∑ k < b, x (p, k)`, a maximum
    is the fold of `max` over `k < b` from the accumulator's value — for the tiled unit's `multi_reduction` and
    for the host's `reduce`.
-/
import Idealize.ShloMosaic.PureOps.Ideal.Laws
import Idealize.ShloMosaic.Lib.ValueIdx
import Idealize.ShloMosaic.Lib.ValueLayout
import Idealize.ShloMosaic.Lib.Pipeline.Value
import proofs.«132157_j13958643712029_1_alg».proof.Proof.LibPlainDot

noncomputable section

open scoped BigOperators

namespace Cert.RowLayer

open Idealize.ShloMosaic Idealize.ShloMosaic.ValueIdx

/-! ## A block of rows times a slice of the weight stack -/

/-- Entry `(p, q)` of `x · w[0]` for a block `x : [M, K]` and a weight slice `w : [1, K, N]`, as the tiled unit spells
    it: the slice viewed as `[K, N]`, both operands' float format changed (the identity on extended reals), a plain
    matrix product into the zero accumulator. -/
theorem blockDot {M K N : Nat} (d : DotDims ⟨2, ![M, K]⟩ ⟨2, ![K, N]⟩ ⟨2, ![M, N]⟩) (hd : Cert.PlainDot.IsPlain d)
    (prec : Option ContractPrecision) (x : FVec Ideal ⟨2, ![M, K]⟩ .f32) (w : FVec Ideal ⟨3, ![1, K, N]⟩ .f32)
    (hc : (⟨3, ![1, K, N]⟩ : Shape).ShapeCasts ⟨2, ![K, N]⟩) (hlt : FTy.bits .bf16 < FTy.bits .f32)
    (p : Fin M) (q : Fin N) :
    matmul d prec (truncf .bf16 x hlt) (truncf .bf16 (shapeCast ⟨2, ![K, N]⟩ w hc) hlt)
        (constant ⟨2, ![M, N]⟩ .f32 0x00000000#32) (ix2 p q)
      = ∑ c : Fin K, x (ix2 p c) * w (ix3 (0 : Fin 1) c q) :=
  (Ideal.matmul_constant_zero_apply d prec _ _ (ix2 p q)).trans
    ((Cert.PlainDot.sum_contr d hd (truncf .bf16 x hlt) (truncf .bf16 (shapeCast ⟨2, ![K, N]⟩ w hc) hlt) p q).trans
      (Finset.sum_congr rfl fun c _ => congrArg (x (ix2 p c) * ·) (shapeCast_1ab_ab_apply w hc c q)))

/-! ## Keepdims: a vector as a column, a column along the rows -/

variable {α : Type}

/-- An `[a]` vector viewed as an `[a, 1]` column reads, at `(p, u)`, the vector's entry `p`: both have position `p` in
    row-major order. -/
theorem shapeCast_a_a1_apply {a : ℕ} (v : (⟨1, ![a]⟩ : Shape).Idx → α)
    (h : (⟨1, ![a]⟩ : Shape).ShapeCasts ⟨2, ![a, 1]⟩) (p : Fin a) (u : Fin 1) :
    shapeCast ⟨2, ![a, 1]⟩ v h (ix2 p u) = v (ix1 p) :=
  shapeCast_apply v h _ _ (by
    have hu : u.val = 0 := by omega
    rw [Shape.rowMajor_val_two, Shape.rowMajor_val_one]
    show p.val = p.val * 1 + u.val
    rw [hu, Nat.mul_one, Nat.add_zero])

/-- An `[a, 1]` column spread to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## A reduction along the rows -/

/-- Row `p` with column `k` put back: the index a reduction over axis 1 of `[a, b]` reads. -/
theorem lift_row {a b : ℕ} (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- The tiled unit's sum along the rows, at row `p`. -/
theorem rowSum_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_row h p k))

/-- The tiled unit's maximum along the rows, at row `p`: the fold of `max` from the accumulator's value. -/
theorem rowMax_apply {a b : ℕ} (src : FVec Ideal ⟨2, ![a, b]⟩ .f32) (acc : BitVec (FTy.bits .f32))
    (h : (⟨2, ![a, b]⟩ : Shape).Reduces [1] ⟨1, ![a]⟩) (hφ : FKind.Formats .f32)
    (hacc : acc = FKind.maximumf.neutral .f32 hφ) (p : Fin a) :
    multiReduction .maximumf [1] ⟨1, ![a]⟩ src acc h hφ hacc (ix1 p)
      = (Finset.univ : Finset (Fin b)).fold max (Ideal.ofBits .f32 acc) (fun k => src (ix2 p k)) :=
  (Ideal.multiReduction_maximumf_single src acc h hφ hacc (ix1 p)).trans
    (congrArg ((Finset.univ : Finset (Fin b)).fold max (Ideal.ofBits .f32 acc))
      (funext fun k => congrArg src (lift_row h p k)))

/-- The host's sum along the rows, at row `p`: the initial value plus the row's sum. -/
theorem hostRowSum_apply {a b : ℕ} {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd (F := Ideal) x init h' hu (ix1 p) = init (Shape.Idx.first hu) + ∑ k : Fin b, x (ix2 p k) :=
  (Ideal.hostReduceAdd_single h' h x (init (Shape.Idx.first hu)) (ix1 p)).trans
    (congrArg (init (Shape.Idx.first hu) + ·) (Finset.sum_congr rfl fun k _ => congrArg x (lift_row h p k)))

/-- The host's maximum along the rows, at row `p`: the fold of `max` from the initial value. -/
theorem hostRowMax_apply {a b : ℕ} {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce FloatOps.maximumf x init h' hu (ix1 p)
      = (Finset.univ : Finset (Fin b)).fold max (init (Shape.Idx.first hu)) (fun k => x (ix2 p k)) :=
  (Host.reduce_eq_fold_single FloatOps.maximumf x init h' h hu (ix1 p)).trans
    (congrArg ((Finset.univ : Finset (Fin b)).fold max (init (Shape.Idx.first hu)))
      (funext fun k => congrArg x (lift_row h p k)))

/-! ## The logarithm of the softmax along the rows of a block, as the tiled unit spells it -/

/-- The tiled unit's spelling of the log-softmax of a block `a : [A, B]` — the row maximum (a `multi_reduction`
    kept as a column and spread back along the rows) subtracted, then the logarithm of the row sum of exponentials,
    likewise a column spread back, subtracted — read at `(p, q)`: with `m` the fold of `max` over row `p` from the
    accumulator's value, it is `(a (p, q) − m) − log ∑_k exp (a (p, k) − m)`. -/
theorem logSoftmax_block_apply {A B : ℕ} (a : FVec Ideal ⟨2, ![A, B]⟩ .f32) (accM accA : BitVec (FTy.bits .f32))
    (h : (⟨2, ![A, B]⟩ : Shape).Reduces [1] ⟨1, ![A]⟩) (hφ : FKind.Formats .f32)
    (hM : accM = FKind.maximumf.neutral .f32 hφ) (hA : accA = FKind.add.neutral .f32 hφ)
    (hc : (⟨1, ![A]⟩ : Shape).ShapeCasts ⟨2, ![A, 1]⟩) (hb : (⟨2, ![A, 1]⟩ : Shape).Broadcasts ⟨2, ![A, B]⟩)
    (p : Fin A) (q : Fin B) :
    subf (subf a (broadcastTo ⟨2, ![A, B]⟩ (shapeCast ⟨2, ![A, 1]⟩ (multiReduction .maximumf [1] ⟨1, ![A]⟩ a accM h hφ hM) hc) hb))
        (broadcastTo ⟨2, ![A, B]⟩ (log (shapeCast ⟨2, ![A, 1]⟩ (multiReduction .add [1] ⟨1, ![A]⟩
          (exp (subf a (broadcastTo ⟨2, ![A, B]⟩ (shapeCast ⟨2, ![A, 1]⟩ (multiReduction .maximumf [1] ⟨1, ![A]⟩ a accM h hφ hM) hc) hb)))
          accA h hφ hA) hc)) hb) (ix2 p q)
      = (a (ix2 p q) - (Finset.univ : Finset (Fin B)).fold max (Ideal.ofBits .f32 accM) (fun k => a (ix2 p k)))
        - Ideal.log (∑ k : Fin B, Ideal.exp (a (ix2 p k)
            - (Finset.univ : Finset (Fin B)).fold max (Ideal.ofBits .f32 accM) (fun k => a (ix2 p k)))) := by
  have hm : ∀ c : Fin B,
      broadcastTo ⟨2, ![A, B]⟩ (shapeCast ⟨2, ![A, 1]⟩ (multiReduction .maximumf [1] ⟨1, ![A]⟩ a accM h hφ hM) hc) hb (ix2 p c)
        = (Finset.univ : Finset (Fin B)).fold max (Ideal.ofBits .f32 accM) (fun k => a (ix2 p k)) := fun c =>
    (broadcastTo_a1_ab_apply _ hb p c).trans ((shapeCast_a_a1_apply _ hc p 0).trans (rowMax_apply a accM h hφ hM p))
  have hs : broadcastTo ⟨2, ![A, B]⟩ (log (shapeCast ⟨2, ![A, 1]⟩ (multiReduction .add [1] ⟨1, ![A]⟩
          (exp (subf a (broadcastTo ⟨2, ![A, B]⟩ (shapeCast ⟨2, ![A, 1]⟩ (multiReduction .maximumf [1] ⟨1, ![A]⟩ a accM h hφ hM) hc) hb)))
          accA h hφ hA) hc)) hb (ix2 p q)
        = Ideal.log (∑ k : Fin B, Ideal.exp (a (ix2 p k)
            - (Finset.univ : Finset (Fin B)).fold max (Ideal.ofBits .f32 accM) (fun k => a (ix2 p k)))) :=
    (broadcastTo_a1_ab_apply _ hb p q).trans (congrArg Ideal.log
      ((shapeCast_a_a1_apply _ hc p 0).trans ((rowSum_apply _ accA h hφ hA p).trans
        (Finset.sum_congr rfl fun k _ => congrArg (fun m => Ideal.exp (a (ix2 p k) - m)) (hm k)))))
  show (a (ix2 p q) - _) - _ = _
  rw [hm q, hs]

end Cert.RowLayer

end
-- ==== Proof.BlockRow.lean ====
/-
  The attention block read at one entry.

  One step of the kernel holds a block of query rows, all the keys, all the values and the block's rows of the
  mask, and computes the block's rows of the output. The computation is a chain of layers, each of which treats
  the rows of a matrix independently of one another, so each layer is read at an entry `(p, u)` in terms of row
  `p` of its operand only. With `q`, `k`, `v`, `μ` the queries, keys, values and mask, `σ` the scaling constant and
  `ε` the small constant added in the last division:

    scores        z (p, u) = (∑ e, q (p, e) · k (u, e)) · σ · μ (p, u)
    exponentials  e (p, u) = exp (z (p, u) − max_k z (p, k))
    re-masking    s (p, u) = e (p, u) / (∑_k e (p, k)) · μ (p, u)
    weights       r (p, u) = s (p, u) / (∑_k s (p, k) + ε)
    output        o (p, d) = ∑ t, r (p, t) · v (t, d)

  so row `p` of the output is the masked attention of query row `p` (`attendRow`). A row statistic (a maximum or
  a sum along the row) is produced as a vector with one entry per row, viewed as a one-column matrix and spread
  back along the rows; read at `(p, u)` that is the statistic of row `p`, whatever `u` is.

  Each layer is named as the kernel spells it and read at an entry, for matrices of any size; `block_apply` puts
  the layers together; `pay_apply` is `block_apply` at the kernel's sizes, between the removal and the return of
  the loaded blocks' leading unit axis.
-/
import proofs.«132157_j13958643712029_1_alg».proof.Proof.Gen.KernelIdeal.Skeleton
import proofs.«132157_j13958643712029_1_alg».proof.Proof.Spec
import proofs.«132157_j13958643712029_1_alg».proof.Proof.LibPlainDot
import proofs.«132157_j13958643712029_1_alg».proof.Proof.LibIndexReads
import proofs.«132157_j13958643712029_1_alg».proof.Proof.LibRowLayer
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Attn.Block

open Idealize.ShloMosaic Idealize.ShloMosaic.ValueIdx Idealize.ShloMosaic.TcCoe Cert.Attn Cert.KernelIdeal

/-! ## A row statistic spread back along the rows -/

section Layers

variable {A B : ℕ}

/-- A vector with one entry per row, viewed as a one-column matrix and spread along the rows, reads at `(p, u)`
    its entry `p`: the column holds entry `p` of the vector in its row `p`, and spreading reads the column. -/
theorem spread_apply {α : Type} (r : (⟨1, ![A]⟩ : Shape).Idx → α)
    (hc : (⟨1, ![A]⟩ : Shape).ShapeCasts ⟨2, ![A, 1]⟩) (hb : (⟨2, ![A, 1]⟩ : Shape).Broadcasts ⟨2, ![A, B]⟩)
    (p : Fin A) (u : Fin B) :
    broadcastTo ⟨2, ![A, B]⟩ (shapeCast ⟨2, ![A, 1]⟩ r hc) hb (ix2 p u) = r (ix1 p) :=
  (Cert.RowLayer.broadcastTo_a1_ab_apply _ hb p u).trans (Cert.RowLayer.shapeCast_a_a1_apply _ hc p 0)

/-! ## The three layers along the rows

  The side conditions of the reductions and re-layings (that `[A, B]` reduces along axis 1 to `[A]`, that the
  starting words are the reductions' neutral words, that `[A]` can be viewed as `[A, 1]` and `[A, 1]` spread to
  `[A, B]`) are carried as hypotheses, so that the layers apply at every size. -/

variable (h : (⟨2, ![A, B]⟩ : Shape).Reduces [1] ⟨1, ![A]⟩) (hφ : FKind.Formats .f32)
  (hM : (0xFF800000#32 : BitVec (FTy.bits .f32)) = FKind.maximumf.neutral .f32 hφ)
  (hA : (0x00000000#32 : BitVec (FTy.bits .f32)) = FKind.add.neutral .f32 hφ)
  (hc : (⟨1, ![A]⟩ : Shape).ShapeCasts ⟨2, ![A, 1]⟩) (hb : (⟨2, ![A, 1]⟩ : Shape).Broadcasts ⟨2, ![A, B]⟩)

/-- The exponential layer: the row maximum (taken from −∞) subtracted from every entry of the row, then the
    exponential. -/
def expLayer (z : FVec Ideal ⟨2, ![A, B]⟩ .f32) : FVec Ideal ⟨2, ![A, B]⟩ .f32 :=
  exp (subf z (broadcastTo ⟨2, ![A, B]⟩
    (shapeCast ⟨2, ![A, 1]⟩ (multiReduction .maximumf [1] ⟨1, ![A]⟩ z 0xFF800000#32 h hφ hM) hc) hb))

/-- The re-masking layer: every entry divided by the sum of its row, then multiplied by the mask's entry. -/
def maskLayer (e m : FVec Ideal ⟨2, ![A, B]⟩ .f32) : FVec Ideal ⟨2, ![A, B]⟩ .f32 :=
  mulf (divf e (broadcastTo ⟨2, ![A, B]⟩
    (shapeCast ⟨2, ![A, 1]⟩ (multiReduction .add [1] ⟨1, ![A]⟩ e 0x00000000#32 h hφ hA) hc) hb)) m

/-- The renormalising layer: every entry divided by the sum of its row plus the float of word `w`. That float is
    added on the column of row sums, before the column is spread back along the rows. -/
def normLayer (w : BitVec (FTy.bits .f32)) (s : FVec Ideal ⟨2, ![A, B]⟩ .f32) : FVec Ideal ⟨2, ![A, B]⟩ .f32 :=
  divf s (broadcastTo ⟨2, ![A, B]⟩
    (addf (shapeCast ⟨2, ![A, 1]⟩ (multiReduction .add [1] ⟨1, ![A]⟩ s 0x00000000#32 h hφ hA) hc)
      (broadcast ⟨2, ![A, 1]⟩ (Scalar.ofBits (F := Ideal) .f32 w))) hb)

/-- The exponential layer at `(p, u)` is the shifted exponential of row `p` at `u`: the entry subtracted is the
    maximum of row `p`. -/
theorem expLayer_apply (z : FVec Ideal ⟨2, ![A, B]⟩ .f32) (p : Fin A) (u : Fin B) :
    expLayer h hφ hM hc hb z (ix2 p u) = expShift (fun k => z (ix2 p k)) u :=
  congrArg (fun m => Ideal.exp (z (ix2 p u) - m))
    ((spread_apply _ hc hb p u).trans (Cert.RowLayer.rowMax_apply z 0xFF800000#32 h hφ hM p))

/-- The re-masking layer at `(p, u)`: the divisor is the sum of row `p`. -/
theorem maskLayer_apply (e m : FVec Ideal ⟨2, ![A, B]⟩ .f32) (p : Fin A) (u : Fin B) :
    maskLayer h hφ hA hc hb e m (ix2 p u) = Ideal.div (e (ix2 p u)) (∑ k : Fin B, e (ix2 p k)) * m (ix2 p u) :=
  congrArg (fun s => Ideal.div (e (ix2 p u)) s * m (ix2 p u))
    ((spread_apply _ hc hb p u).trans (Cert.RowLayer.rowSum_apply e 0x00000000#32 h hφ hA p))

/-- The renormalising layer at `(p, u)`: the divisor is the sum of row `p` plus the float of word `w`. The
    spread column is read at `(p, 0)`, where it holds the sum of the column of row sums and the splat. -/
theorem normLayer_apply (w : BitVec (FTy.bits .f32)) (s : FVec Ideal ⟨2, ![A, B]⟩ .f32) (p : Fin A) (u : Fin B) :
    normLayer h hφ hA hc hb w s (ix2 p u)
      = Ideal.div (s (ix2 p u)) ((∑ k : Fin B, s (ix2 p k)) + Ideal.ofBits .f32 w) :=
  congrArg (Ideal.div (s (ix2 p u)))
    ((Cert.RowLayer.broadcastTo_a1_ab_apply _ hb p u).trans
      (congrArg (· + Ideal.ofBits .f32 w)
        ((Cert.RowLayer.shapeCast_a_a1_apply _ hc p 0).trans (Cert.RowLayer.rowSum_apply s 0x00000000#32 h hφ hA p))))

/-! ## The three layers of one row, put together -/

/-- On one row: if `e` is the row of shifted exponentials of the scores `z`, and `s` is `e` divided by its sum and
    masked by `μ`, then `s` divided by its sum plus `ε` is the row of weights. -/
theorem weights_of_rows (ε : EReal) (z μ e s : Fin B → EReal) (he : ∀ u, e u = expShift z u)
    (hs : ∀ u, s u = Ideal.div (e u) (∑ k : Fin B, e k) * μ u) (t : Fin B) :
    Ideal.div (s t) ((∑ k : Fin B, s k) + ε) = weights ε z μ t := by
  obtain rfl : e = expShift z := funext he
  obtain rfl : s = remasked z μ := funext hs
  rfl

/-- The three layers over scores `z` and mask `m`, at `(p, t)`: the weight of row `p` of `z` under row `p` of `m`,
    at `t`. Rows `p` of the exponential and of the re-masking layers are the `e` and `s` of `weights_of_rows`. -/
theorem weightLayers_apply (w : BitVec (FTy.bits .f32)) (z m : FVec Ideal ⟨2, ![A, B]⟩ .f32) (p : Fin A) (t : Fin B) :
    normLayer h hφ hA hc hb w (maskLayer h hφ hA hc hb (expLayer h hφ hM hc hb z) m) (ix2 p t)
      = weights (Ideal.ofBits .f32 w) (fun k => z (ix2 p k)) (fun k => m (ix2 p k)) t :=
  (normLayer_apply h hφ hA hc hb w _ p t).trans
    (weights_of_rows (Ideal.ofBits .f32 w) (fun k => z (ix2 p k)) (fun k => m (ix2 p k))
      (fun u => expLayer h hφ hM hc hb z (ix2 p u))
      (fun u => maskLayer h hφ hA hc hb (expLayer h hφ hM hc hb z) m (ix2 p u))
      (fun u => expLayer_apply h hφ hM hc hb z p u)
      (fun u => maskLayer_apply h hφ hA hc hb _ m p u) t)

end Layers

/-! ## The two matrix products, and the block -/

section Products

variable {P S D : ℕ}

/-- The scores layer: the product of the queries with the transposed keys into the zero accumulator, times the
    splat of the scaling constant, times the mask. -/
def scoreLayer (w : DotDims.WF ⟨2, ![P, D]⟩ ⟨2, ![S, D]⟩ ⟨2, ![P, S]⟩ [1] [1] [0] [0] [] [])
    (prec : Option ContractPrecision) (q : FVec Ideal ⟨2, ![P, D]⟩ .bf16) (k : FVec Ideal ⟨2, ![S, D]⟩ .bf16)
    (m : FVec Ideal ⟨2, ![P, S]⟩ .f32) : FVec Ideal ⟨2, ![P, S]⟩ .f32 :=
  mulf (mulf (matmul (⟨[1], [1], [0], [0], [], [], w⟩ : DotDims _ _ _) prec q k (constant (F := Ideal) _ .f32 0x00000000#32))
    (broadcast ⟨2, ![P, S]⟩ (Scalar.ofBits (F := Ideal) .f32 0x3D000000#32))) m

/-- The scores layer at `(p, u)` is the masked scaled score of query row `p` against key `u`: the product reads
    row `p` of the queries against row `u` of the keys, and the two factors after it act entry by entry. -/
theorem scoreLayer_apply (w : DotDims.WF ⟨2, ![P, D]⟩ ⟨2, ![S, D]⟩ ⟨2, ![P, S]⟩ [1] [1] [0] [0] [] [])
    (prec : Option ContractPrecision) (q : FVec Ideal ⟨2, ![P, D]⟩ .bf16) (k : FVec Ideal ⟨2, ![S, D]⟩ .bf16)
    (m : FVec Ideal ⟨2, ![P, S]⟩ .f32) (p : Fin P) (u : Fin S) :
    scoreLayer w prec q k m (ix2 p u)
      = scores kScale (fun e => q (ix2 p e)) (fun u e => k (ix2 u e)) (fun u => m (ix2 p u)) u :=
  congrArg (fun s => s * Ideal.ofBits .f32 0x3D000000#32 * m (ix2 p u))
    (Cert.Lib.IndexReads.matmul_nt_apply w prec q k p u)

/-- The output layer: the weights (their float format narrowed, which changes nothing on extended reals) times
    the values, into the zero accumulator; a plain matrix product. -/
theorem outLayer_apply (d : DotDims ⟨2, ![P, S]⟩ ⟨2, ![S, D]⟩ ⟨2, ![P, D]⟩) (hd : Cert.PlainDot.IsPlain d)
    (prec : Option ContractPrecision) (r : FVec Ideal ⟨2, ![P, S]⟩ .f32) (hlt : FTy.bits .bf16 < FTy.bits .f32)
    (v : FVec Ideal ⟨2, ![S, D]⟩ .bf16) (p : Fin P) (c : Fin D) :
    matmul d prec (truncf .bf16 r hlt) v (constant ⟨2, ![P, D]⟩ .f32 0x00000000#32) (ix2 p c)
      = ∑ t : Fin S, r (ix2 p t) * v (ix2 t c) :=
  (Ideal.matmul_constant_zero_apply d prec _ _ (ix2 p c)).trans
    (Cert.PlainDot.sum_contr d hd (truncf .bf16 r hlt) v p c)

variable (h : (⟨2, ![P, S]⟩ : Shape).Reduces [1] ⟨1, ![P]⟩) (hφ : FKind.Formats .f32)
  (hM : (0xFF800000#32 : BitVec (FTy.bits .f32)) = FKind.maximumf.neutral .f32 hφ)
  (hA : (0x00000000#32 : BitVec (FTy.bits .f32)) = FKind.add.neutral .f32 hφ)
  (hc : (⟨1, ![P]⟩ : Shape).ShapeCasts ⟨2, ![P, 1]⟩) (hb : (⟨2, ![P, 1]⟩ : Shape).Broadcasts ⟨2, ![P, S]⟩)

/-- The whole block, for `P` queries, `S` keys and values and `D` features: entry `(p, c)` of the output is the
    masked attention of query row `p` at feature `c`. The output layer sums the weights of row `p` against column
    `c` of the values; the weights are those of the scores of row `p`, which the scores layer computes from query
    row `p`, the keys and row `p` of the mask. -/
theorem block_apply (w : DotDims.WF ⟨2, ![P, D]⟩ ⟨2, ![S, D]⟩ ⟨2, ![P, S]⟩ [1] [1] [0] [0] [] [])
    (d : DotDims ⟨2, ![P, S]⟩ ⟨2, ![S, D]⟩ ⟨2, ![P, D]⟩) (hd : Cert.PlainDot.IsPlain d)
    (hlt : FTy.bits .bf16 < FTy.bits .f32) (prec prec' : Option ContractPrecision)
    (q : FVec Ideal ⟨2, ![P, D]⟩ .bf16) (k v : FVec Ideal ⟨2, ![S, D]⟩ .bf16) (m : FVec Ideal ⟨2, ![P, S]⟩ .f32)
    (p : Fin P) (c : Fin D) :
    matmul d prec' (truncf .bf16 (normLayer h hφ hA hc hb 0x1E3CE508#32
        (maskLayer h hφ hA hc hb (expLayer h hφ hM hc hb (scoreLayer w prec q k m)) m)) hlt) v
        (constant ⟨2, ![P, D]⟩ .f32 0x00000000#32) (ix2 p c)
      = attendRow kScale eps (fun e => q (ix2 p e)) (fun u e => k (ix2 u e)) (fun t e => v (ix2 t e))
          (fun u => m (ix2 p u)) c :=
  (outLayer_apply d hd prec' _ hlt v p c).trans
    (Finset.sum_congr rfl fun t _ => congrArg (· * v (ix2 t c))
      ((weightLayers_apply h hφ hM hA hc hb 0x1E3CE508#32 (scoreLayer w prec q k m) m p t).trans
        (congrArg (fun z => weights eps z (fun u => m (ix2 p u)) t)
          (funext fun u => scoreLayer_apply w prec q k m p u))))

end Products

/-! ## The kernel's block -/

/-- The second product's dimension numbers are those of a plain matrix product. -/
theorem plain_out : Cert.PlainDot.IsPlain dot_S256x2048_S2048x1024_S256x1024_1_0_0_1_n_n :=
  ⟨rfl, rfl, rfl, rfl, rfl, rfl⟩

/-- Entry `(0, p, d)` of the block the kernel stores is the masked attention of query row `p` of the block against
    all the keys and values, under row `p` of the mask, at feature `d`. The kernel removes the leading unit axis of
    the four loaded blocks, converts the mask's integers to floats, runs the block of `block_apply`, and returns the
    unit axis; so the rows `block_apply` reads are rows of the loaded blocks at leading coordinate 0. -/
theorem pay_apply
    (x0 : Vec Ideal S1x256x1024 .bf16) (x1 x2 : Vec Ideal S1x2048x1024 .bf16) (x3 : Vec Ideal S1x256x2048 .i32)
    (p : Fin 256) (d : Fin 1024) :
    Cert.KernelIdeal.Gen.k1_pay1 (F := Ideal) x0 x1 x2 x3 (ix3 (0 : Fin 1) p d)
      = attendRow kScale eps
          (fun e => x0 (ix3 (0 : Fin 1) p e))
          (fun u e => x1 (ix3 (0 : Fin 1) u e))
          (fun t e => x2 (ix3 (0 : Fin 1) t e))
          (fun u => FloatOps.sitofp (F := Ideal) .f32 (x3 (ix3 (0 : Fin 1) p u))) d := by
  -- the loaded blocks without their unit axis: entry `(i, j)` is entry `(0, i, j)`
  have hq : (fun e : Fin 1024 => shapeCast S256x1024 x0 Gen.shapeCasts_S1x256x1024_S256x1024 (ix2 p e))
      = fun e => x0 (ix3 (0 : Fin 1) p e) := funext fun e => shapeCast_1ab_ab_apply x0 _ p e
  have hk : (fun (u : Fin 2048) (e : Fin 1024) => shapeCast S2048x1024 x1 Gen.shapeCasts_S1x2048x1024_S2048x1024 (ix2 u e))
      = fun u e => x1 (ix3 (0 : Fin 1) u e) := funext fun u => funext fun e => shapeCast_1ab_ab_apply x1 _ u e
  have hv : (fun (t : Fin 2048) (e : Fin 1024) => shapeCast S2048x1024 x2 Gen.shapeCasts_S1x2048x1024_S2048x1024 (ix2 t e))
      = fun t e => x2 (ix3 (0 : Fin 1) t e) := funext fun t => funext fun e => shapeCast_1ab_ab_apply x2 _ t e
  -- the mask as floats: the conversion acts entry by entry
  have hm : (fun u : Fin 2048 =>
        (sitofp .f32 (shapeCast S256x2048 x3 Gen.shapeCasts_S1x256x2048_S256x2048) : FVec Ideal S256x2048 .f32) (ix2 p u))
      = fun u => FloatOps.sitofp (F := Ideal) .f32 (x3 (ix3 (0 : Fin 1) p u)) := funext fun u =>
    congrArg (FloatOps.sitofp (F := Ideal) .f32) (shapeCast_1ab_ab_apply x3 _ p u)
  unfold Gen.k1_pay1
  -- the unit axis returned, then the block
  refine (shapeCast_ab_1ab_apply _ Gen.shapeCasts_S256x1024_S1x256x1024 0 p d).trans ?_
  refine (block_apply Gen.reduces_S256x2048_S256 (.inl rfl) rfl rfl Gen.shapeCasts_S256_S256x1
    Gen.broadcasts_S256x1_S256x2048 Gen.dot_S256x1024_S2048x1024_S256x2048_1_1_0_0_n_n_wf _ plain_out
    Gen.bitsLt_bf16_f32 none none _ _ _ _ p d).trans ?_
  -- the rows it reads are rows of the loaded blocks
  exact congrFun (congr (congr (congr (congrArg (attendRow kScale eps) hq) hk) hv) hm) d

end Cert.Attn.Block

end
-- ==== Proof.AttnRegion.lean ====
/-
  The attention region: what it leaves in the result array.

  The region's grid is 8 × 8: point `(b, g)` reads rows `256·g … 256·g + 255` of batch `b` of the queries and of
  the mask, all 2048 rows of batch `b` of the keys and of the values, and writes the same 256 rows of batch `b` of
  the result. Row `p` of the stored block is the masked attention of query row `256·g + p` against the keys and
  values of its batch, so the block is the restriction of ONE function of the arrays as the region finds them,
  `attendArr`. The 64 blocks tile the array, so after the region the result array IS that function.
-/
import proofs.«132157_j13958643712029_1_alg».proof.Proof.Gen.KernelIdeal.Frame
import proofs.«132157_j13958643712029_1_alg».proof.Proof.Spec
import proofs.«132157_j13958643712029_1_alg».proof.Proof.BlockRow
import Idealize.ShloMosaic.Lib.Pipeline.Value
import Idealize.ShloMosaic.Lib.ValueIdx

set_option maxRecDepth 16384

noncomputable section

open scoped BigOperators

namespace Cert.KernelIdeal.AttnV

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Attn

/-- Entry `(b, s, d)` of the masked attention of the queries `q` against the keys `k` and values `v` of the same
    batch, under the integer mask. -/
def attendArr (q k v : S8x2048x1024.Idx → EReal) (mask : S8x2048x2048.Idx → BitVec 32) : S8x2048x1024.Idx → EReal :=
  fun i => attendRow kScale eps
    (fun e : Fin 1024 => q (ix3 (i 0) (i 1) e))
    (fun (u : Fin 2048) (e : Fin 1024) => k (ix3 (i 0) u e))
    (fun (t : Fin 2048) (e : Fin 1024) => v (ix3 (i 0) t e))
    (fun u : Fin 2048 => FloatOps.sitofp (F := Ideal) .f32 (mask (ix3 (i 0) (i 1) u)))
    (i 2)

theorem zero_offsets : (![0, 0, 0] : Fin 3 → Nat) = fun _ => 0 := funext fun a => by fin_cases a <;> rfl

/-- Two rows of masked attention with equal data are equal. -/
theorem attendRow_congr {S D : ℕ} {σ : EReal → EReal} {ε : EReal} {q q' : Fin D → EReal} {k k' v v' : Fin S → Fin D → EReal}
    {μ μ' : Fin S → EReal} {d d' : Fin D} (hq : q = q') (hk : k = k') (hv : v = v') (hμ : μ = μ') (hd : d = d') :
    attendRow σ ε q k v μ d = attendRow σ ε q' k' v' μ' d' := by
  subst hq hk hv hμ hd; rfl

/-! ## The index maps, decided once over the 64 grid points -/

/-- The queries, the mask and the result move together (batch `b`, row block `g`); the keys and values move with the
    batch only; nothing moves along the last axis. -/
theorem idx_facts : ∀ t : Fin cfg1.N,
    win1_0.index t (0 : Fin 3) = win1_4.index t (0 : Fin 3) ∧ win1_0.index t (1 : Fin 3) = win1_4.index t (1 : Fin 3)
    ∧ win1_0.index t (2 : Fin 3) = 0
    ∧ win1_1.index t (0 : Fin 3) = win1_4.index t (0 : Fin 3) ∧ win1_1.index t (1 : Fin 3) = 0 ∧ win1_1.index t (2 : Fin 3) = 0
    ∧ win1_2.index t (0 : Fin 3) = win1_4.index t (0 : Fin 3) ∧ win1_2.index t (1 : Fin 3) = 0 ∧ win1_2.index t (2 : Fin 3) = 0
    ∧ win1_3.index t (0 : Fin 3) = win1_4.index t (0 : Fin 3) ∧ win1_3.index t (1 : Fin 3) = win1_4.index t (1 : Fin 3)
    ∧ win1_3.index t (2 : Fin 3) = 0
    ∧ win1_4.index t (2 : Fin 3) = 0 :=
  (by decide +kernel : ∀ t : Fin grid1.N, _)

/-- Every (batch, row block) pair is some grid point's. -/
theorem idx_onto : ∀ (b : Fin 8) (g : Fin 8), ∃ t : Fin cfg1.N, win1_4.index t = ![b.val, g.val, 0] :=
  (by decide +kernel : ∀ (b : Fin 8) (g : Fin 8), ∃ t : Fin grid1.N, win1_4.index t = ![b.val, g.val, 0])

/-! ## The blocks tile the result array -/

/-- An index of the result is in point `t`'s block iff each coordinate is in the block's range on its axis. -/
theorem mem_blk4 (t : Fin cfg1.N) (i : S8x2048x1024.Idx) :
    i ∈ ((cfg1.win 4).blk t).view.set ↔ ∀ a : Fin 3, win1_4.index t a * S1x256x1024.size a ≤ (i a).val
      ∧ (i a).val < win1_4.index t a * S1x256x1024.size a + S1x256x1024.size a := by
  show i ∈ ((View.whole main_v8).slice (win1_4.rect t)).set ↔ _
  rw [View.set_slice_whole, Rect.mem_set_unit]
  exact Iff.rfl

/-- Row `s` of batch `b` is in the block of the point with batch `b` and row block `s / 256`: the 8 × 8 blocks of
    256 rows tile the 8 batches of 2048 rows. -/
theorem cover4 (i : S8x2048x1024.Idx) :
    ∃ t : Fin cfg1.N, (cfg1.win 4).flush t = true ∧ i ∈ ((cfg1.win 4).blk t).view.set := by
  have hi0 : (i 0).val < 8 := (i 0).isLt
  have hi1 : (i 1).val < 2048 := (i 1).isLt
  have hi2 : (i 2).val < 1024 := (i 2).isLt
  obtain ⟨t, ht⟩ := idx_onto ⟨(i 0).val, hi0⟩ ⟨(i 1).val / 256, by omega⟩
  have q0 : win1_4.index t (0 : Fin 3) = (i 0).val := congrFun ht 0
  have q1 : win1_4.index t (1 : Fin 3) = (i 1).val / 256 := congrFun ht 1
  have q2 : win1_4.index t (2 : Fin 3) = 0 := congrFun ht 2
  refine ⟨t, flush1_4 t, ?_⟩
  rw [mem_blk4]
  intro a
  match a with
  | ⟨0, _⟩ =>
    show win1_4.index t (0 : Fin 3) * 1 ≤ (i 0).val ∧ (i 0).val < win1_4.index t (0 : Fin 3) * 1 + 1
    omega
  | ⟨1, _⟩ =>
    show win1_4.index t (1 : Fin 3) * 256 ≤ (i 1).val ∧ (i 1).val < win1_4.index t (1 : Fin 3) * 256 + 256
    omega
  | ⟨2, _⟩ =>
    show win1_4.index t (2 : Fin 3) * 1024 ≤ (i 2).val ∧ (i 2).val < win1_4.index t (2 : Fin 3) * 1024 + 1024
    omega

section Region

variable (V : (c : Dev nD) → (b : Ref sig .tc) → Buf (Elt Ideal) ((c : Thread nD τ).loc b))

/-- WHAT POINT `t` WRITES BACK is block `t` of the masked attention of the arrays as the region finds them. -/
theorem flushed4 (c : Dev nD) (t : Fin cfg1.N) :
    (dat1 V c).flushed 4 t = ((cfg1.win 4).blk t).view.read (Elt Ideal)
      (attendArr (V c main_v5) (V c main_v6) (V c main_v7) (V c main_arg1)) := by
  show (cfg1.win 4).cut (grid1.coords t) ((dat1 V c).after 4 t) = _
  rw [after1_4]
  unfold out1_4
  rw [View.canon_unit_zero zero_offsets]
  simp only [View.ld_unit_zero (S := S1x256x1024) zero_offsets, View.ld_unit_zero (S := S1x2048x1024) zero_offsets,
    View.ld_unit_zero (S := S1x256x2048) zero_offsets]
  obtain ⟨e00, e01, e02, e10, e11, e12, e20, e21, e22, e30, e31, e32, e42⟩ := idx_facts t
  funext j
  have hj0 : (j 0).val < 1 := (j 0).isLt
  have hj1 : (j 1).val < 256 := (j 1).isLt
  have hj2 : (j 2).val < 1024 := (j 2).isLt
  have hj : j = ix3 (0 : Fin 1) (j 1) (j 2) := by
    funext a
    match a with
    | ⟨0, _⟩ => exact Fin.ext (by show (j 0).val = 0; omega)
    | ⟨1, _⟩ => rfl
    | ⟨2, _⟩ => rfl
  refine ((congrArg (k1_pay1 (F := Ideal) (iblk1 V c 0 t) (iblk1 V c 1 t) (iblk1 V c 2 t) (iblk1 V c 3 t)) hj).trans
    (Cert.Attn.Block.pay_apply (iblk1 V c 0 t) (iblk1 V c 1 t) (iblk1 V c 2 t) (iblk1 V c 3 t) (j 1) (j 2))).trans ?_
  show attendRow kScale eps
      (fun e : Fin 1024 => (show EReal from V c main_v5 (((cfg1.win 0).blk t).view.emb (ix3 (0 : Fin 1) (j 1) e))))
      (fun (u : Fin 2048) (e : Fin 1024) => (show EReal from V c main_v6 (((cfg1.win 1).blk t).view.emb (ix3 (0 : Fin 1) u e))))
      (fun (u : Fin 2048) (e : Fin 1024) => (show EReal from V c main_v7 (((cfg1.win 2).blk t).view.emb (ix3 (0 : Fin 1) u e))))
      (fun u : Fin 2048 => FloatOps.sitofp (F := Ideal) .f32
        (show BitVec 32 from V c main_arg1 (((cfg1.win 3).blk t).view.emb (ix3 (0 : Fin 1) (j 1) u))))
      (j 2)
    = attendRow kScale eps
      (fun e : Fin 1024 => (show EReal from V c main_v5 (ix3 ((((cfg1.win 4).blk t).view.emb j) 0) ((((cfg1.win 4).blk t).view.emb j) 1) e)))
      (fun (u : Fin 2048) (e : Fin 1024) => (show EReal from V c main_v6 (ix3 ((((cfg1.win 4).blk t).view.emb j) 0) u e)))
      (fun (u : Fin 2048) (e : Fin 1024) => (show EReal from V c main_v7 (ix3 ((((cfg1.win 4).blk t).view.emb j) 0) u e)))
      (fun u : Fin 2048 => FloatOps.sitofp (F := Ideal) .f32
        (show BitVec 32 from V c main_arg1 (ix3 ((((cfg1.win 4).blk t).view.emb j) 0) ((((cfg1.win 4).blk t).view.emb j) 1) u)))
      ((((cfg1.win 4).blk t).view.emb j) 2)
  -- each block's element sits in its array at block index × block size + its coordinate
  have hq : ∀ e : Fin 1024, ((cfg1.win 0).blk t).view.emb (ix3 (0 : Fin 1) (j 1) e)
      = ix3 ((((cfg1.win 4).blk t).view.emb j) 0) ((((cfg1.win 4).blk t).view.emb j) 1) e := fun e => by
    funext a; apply Fin.ext
    match a with
    | ⟨0, _⟩ => show win1_0.index t (0 : Fin 3) * 1 + 1 * 0 = win1_4.index t (0 : Fin 3) * 1 + 1 * (j 0).val; omega
    | ⟨1, _⟩ => show win1_0.index t (1 : Fin 3) * 256 + 1 * (j 1).val = win1_4.index t (1 : Fin 3) * 256 + 1 * (j 1).val; omega
    | ⟨2, _⟩ => show win1_0.index t (2 : Fin 3) * 1024 + 1 * e.val = e.val; omega
  have hk : ∀ (u : Fin 2048) (e : Fin 1024), ((cfg1.win 1).blk t).view.emb (ix3 (0 : Fin 1) u e)
      = ix3 ((((cfg1.win 4).blk t).view.emb j) 0) u e := fun u e => by
    funext a; apply Fin.ext
    match a with
    | ⟨0, _⟩ => show win1_1.index t (0 : Fin 3) * 1 + 1 * 0 = win1_4.index t (0 : Fin 3) * 1 + 1 * (j 0).val; omega
    | ⟨1, _⟩ => show win1_1.index t (1 : Fin 3) * 2048 + 1 * u.val = u.val; omega
    | ⟨2, _⟩ => show win1_1.index t (2 : Fin 3) * 1024 + 1 * e.val = e.val; omega
  have hv : ∀ (u : Fin 2048) (e : Fin 1024), ((cfg1.win 2).blk t).view.emb (ix3 (0 : Fin 1) u e)
      = ix3 ((((cfg1.win 4).blk t).view.emb j) 0) u e := fun u e => by
    funext a; apply Fin.ext
    match a with
    | ⟨0, _⟩ => show win1_2.index t (0 : Fin 3) * 1 + 1 * 0 = win1_4.index t (0 : Fin 3) * 1 + 1 * (j 0).val; omega
    | ⟨1, _⟩ => show win1_2.index t (1 : Fin 3) * 2048 + 1 * u.val = u.val; omega
    | ⟨2, _⟩ => show win1_2.index t (2 : Fin 3) * 1024 + 1 * e.val = e.val; omega
  have hm : ∀ u : Fin 2048, ((cfg1.win 3).blk t).view.emb (ix3 (0 : Fin 1) (j 1) u)
      = ix3 ((((cfg1.win 4).blk t).view.emb j) 0) ((((cfg1.win 4).blk t).view.emb j) 1) u := fun u => by
    funext a; apply Fin.ext
    match a with
    | ⟨0, _⟩ => show win1_3.index t (0 : Fin 3) * 1 + 1 * 0 = win1_4.index t (0 : Fin 3) * 1 + 1 * (j 0).val; omega
    | ⟨1, _⟩ => show win1_3.index t (1 : Fin 3) * 256 + 1 * (j 1).val = win1_4.index t (1 : Fin 3) * 256 + 1 * (j 1).val; omega
    | ⟨2, _⟩ => show win1_3.index t (2 : Fin 3) * 2048 + 1 * u.val = u.val; omega
  have hd : (j 2 : Fin 1024) = (((cfg1.win 4).blk t).view.emb j) 2 :=
    Fin.ext (by show (j 2).val = win1_4.index t (2 : Fin 3) * 1024 + 1 * (j 2).val; omega)
  exact attendRow_congr (funext fun e => by rw [hq e]; rfl) (funext fun u => funext fun e => by rw [hk u e]; rfl)
    (funext fun u => funext fun e => by rw [hv u e]; rfl) (funext fun u => by rw [hm u]; rfl) hd

/-- THE RESULT ARRAY after the region: the masked attention of the arrays as the region finds them, entry by entry. -/
theorem final4 (c : Dev nD) :
    (dat1 V c).arrAt 4 cfg1.N = attendArr (V c main_v5) (V c main_v6) (V c main_v7) (V c main_arg1) :=
  (dat1 V c).arrAt_eq_of_cover 4 _ (fun t _ => flushed4 V c t) cover4

end Region

end Cert.KernelIdeal.AttnV

end
-- ==== Proof.KernelValue.lean ====
/-
  The idealized kernel's result, entry by entry, as a function of the arguments.

  The result array is what the attention region leaves (`AttnV.final4`): the masked attention of the queries, keys,
  values and mask AS THAT REGION FINDS THEM. It finds the mask as launched, and each of the queries, keys and values
  as a projection re-laid: the projection region left the 16384 rows of `x` (re-laid) times a weight matrix
  (`ProjV.final4 … final6`), and row `2048·b + s` of those is row `s` of batch `b`. So entry `(b, s, e)` of the
  queries is `∑ e', x (b, s, e') · Wq (e', e)` — `proj x Wq b s e` — and likewise the keys and the values.
-/
import proofs.«132157_j13958643712029_1_alg».proof.Proof.Stretches
import proofs.«132157_j13958643712029_1_alg».proof.Proof.ProjRegion
import proofs.«132157_j13958643712029_1_alg».proof.Proof.AttnRegion
import proofs.«132157_j13958643712029_1_alg».proof.Proof.LibIndexReads

set_option maxRecDepth 16384

noncomputable section

open scoped BigOperators

namespace Cert.KernelIdeal.OutV

open Idealize.ShloMosaic Idealize.ShloMosaic.TcCoe Idealize.ShloMosaic.ValueIdx Idealize.SL.Sem
open Cert.KernelIdeal Cert.KernelIdeal.Gen Cert.Attn

/-- Re-lay `x` as 16384 rows, multiply the rows by `W`, re-lay the product back as 8 batches of 2048 rows: entry
    `(b, s, e)` is the projection of row `s` of batch `b`, because that row is row `2048·b + s` of the 16384. -/
theorem relaid_proj (x : S8x2048x1024.Idx → EReal) (W : S1024x1024.Idx → EReal) (b : Fin 8) (s : Fin 2048) (e : Fin 1024) :
    shapeCast S8x2048x1024 (ProjV.rowsTimes (shapeCast S16384x1024 x shapeCasts_S8x2048x1024_S16384x1024) W)
        shapeCasts_S16384x1024_S8x2048x1024 (ix3 b s e)
      = proj x W b s e := by
  have hlt : b.val * 2048 + s.val < 16384 := by have := b.isLt; have := s.isLt; omega
  refine (Cert.Lib.IndexReads.unflatten_apply _ shapeCasts_S16384x1024_S8x2048x1024
    (⟨b.val * 2048 + s.val, hlt⟩ : Fin 16384) b s e rfl).trans ?_
  unfold ProjV.rowsTimes proj
  refine Finset.sum_congr rfl fun e' _ => ?_
  show shapeCast S16384x1024 x shapeCasts_S8x2048x1024_S16384x1024 (ix2 (⟨b.val * 2048 + s.val, hlt⟩ : Fin 16384) e') * W (ix2 e' e)
    = x (ix3 b s e') * W (ix2 e' e)
  rw [Cert.Lib.IndexReads.flatten_apply x shapeCasts_S8x2048x1024_S16384x1024 (⟨b.val * 2048 + s.val, hlt⟩ : Fin 16384) b s e' rfl]

variable (m : (ℓ : Loc nD τ sig) → Buf (Elt Ideal) ℓ) (ρ : Dev nD → PrngReg)

/-- The queries the attention region finds: `x` projected by the first weight matrix, re-laid. -/
theorem queries_found (c : Dev nD) :
    V3 m ρ c main_v5 = shapeCast S8x2048x1024 (ProjV.rowsTimes
        (shapeCast S16384x1024 (m ((c : Thread nD τ).loc main_arg0)) shapeCasts_S8x2048x1024_S16384x1024)
        (m ((c : Thread nD τ).loc main_arg2))) shapeCasts_S16384x1024_S8x2048x1024 :=
  (StretchV.V3_v5 m ρ c).trans (congrArg (fun a => shapeCast S8x2048x1024 a shapeCasts_S16384x1024_S8x2048x1024)
    ((ProjV.final4 (V1 m ρ) c).trans (congr (congrArg ProjV.rowsTimes (StretchV.V1_v0 m ρ c)) (StretchV.V1_v1 m ρ c))))

/-- The keys it finds: `x` projected by the second weight matrix, re-laid. -/
theorem keys_found (c : Dev nD) :
    V3 m ρ c main_v6 = shapeCast S8x2048x1024 (ProjV.rowsTimes
        (shapeCast S16384x1024 (m ((c : Thread nD τ).loc main_arg0)) shapeCasts_S8x2048x1024_S16384x1024)
        (m ((c : Thread nD τ).loc main_arg3))) shapeCasts_S16384x1024_S8x2048x1024 :=
  (StretchV.V3_v6 m ρ c).trans (congrArg (fun a => shapeCast S8x2048x1024 a shapeCasts_S16384x1024_S8x2048x1024)
    ((ProjV.final5 (V1 m ρ) c).trans (congr (congrArg ProjV.rowsTimes (StretchV.V1_v0 m ρ c)) (StretchV.V1_v2 m ρ c))))

/-- The values it finds: `x` projected by the third weight matrix, re-laid. -/
theorem values_found (c : Dev nD) :
    V3 m ρ c main_v7 = shapeCast S8x2048x1024 (ProjV.rowsTimes
        (shapeCast S16384x1024 (m ((c : Thread nD τ).loc main_arg0)) shapeCasts_S8x2048x1024_S16384x1024)
        (m ((c : Thread nD τ).loc main_arg4))) shapeCasts_S16384x1024_S8x2048x1024 :=
  (StretchV.V3_v7 m ρ c).trans (congrArg (fun a => shapeCast S8x2048x1024 a shapeCasts_S16384x1024_S8x2048x1024)
    ((ProjV.final6 (V1 m ρ) c).trans (congr (congrArg ProjV.rowsTimes (StretchV.V1_v0 m ρ c)) (StretchV.V1_v3 m ρ c))))

/-- The kernel's result as one function of the argument arrays: entry `(b, s, d)` is the masked attention of the
    projected query row `s` of batch `b` against the projected keys and values of that batch. -/
def result (x : S8x2048x1024.Idx → EReal) (mask : S8x2048x2048.Idx → BitVec 32) (Wq Wk Wv : S1024x1024.Idx → EReal) :
    S8x2048x1024.Idx → EReal :=
  fun i => attendRow kScale eps
    (fun e : Fin 1024 => proj x Wq (i 0) (i 1) e)
    (fun (u : Fin 2048) (e : Fin 1024) => proj x Wk (i 0) u e)
    (fun (t : Fin 2048) (e : Fin 1024) => proj x Wv (i 0) t e)
    (fun u : Fin 2048 => FloatOps.sitofp (F := Ideal) .f32 (mask (ix3 (i 0) (i 1) u)))
    (i 2)

/-- THE RESULT ARRAY at the last boundary is `result` of the arguments as launched. -/
theorem result_eq (c : Dev nD) :
    W4 m ρ c (Proc.devRef .tc main_v8) = result (m ((c : Thread nD τ).loc main_arg0)) (m ((c : Thread nD τ).loc main_arg1))
      (m ((c : Thread nD τ).loc main_arg2)) (m ((c : Thread nD τ).loc main_arg3)) (m ((c : Thread nD τ).loc main_arg4)) := by
  refine ((StretchV.W4_v8 m ρ c).trans (AttnV.final4 (V3 m ρ) c)).trans ?_
  funext i
  unfold AttnV.attendArr result
  refine AttnV.attendRow_congr (funext fun e => ?_) (funext fun u => funext fun e => ?_)
    (funext fun t => funext fun e => ?_) (funext fun u => ?_) rfl
  · exact (congrFun (queries_found m ρ c) (ix3 (i 0) (i 1) e)).trans (relaid_proj _ _ (i 0) (i 1) e)
  · exact (congrFun (keys_found m ρ c) (ix3 (i 0) u e)).trans (relaid_proj _ _ (i 0) u e)
  · exact (congrFun (values_found m ρ c) (ix3 (i 0) t e)).trans (relaid_proj _ _ (i 0) t e)
  · exact congrArg (FloatOps.sitofp (F := Ideal) .f32) (congrFun (StretchV.V3_arg1 m ρ c) (ix3 (i 0) (i 1) u))

end Cert.KernelIdeal.OutV

end
-- ==== Proof.RefRow.lean ====
/-
  The reference computes masked attention one array at a time: every operation produces a whole array of shape
  [8, 2048, 2048], [8, 2048] or [8, 2048, 1024]. This file reads that chain at one entry and finds, stage by stage,
  the textbook quantities of one query row:

    the three projections at (b, s, e)            q, k, v   — sums over the 1024 input features
    the scaled, masked scores at (b, s, u)         z_u       — a sum over the features, a quotient, the mask
    their row maximum at (b, s)                    M         — a fold of max over the 2048 keys, from −∞
    the shifted exponentials at (b, s, u)          exp (z_u − M)
    the softmax masked again at (b, s, u)          e_u / (∑ e_•) · μ_u
    the renormalised weights at (b, s, u)          s_u / (∑ s_• + ε)
    the output at (b, s, d)                        ∑ t, r_t · v t d

  Batch b and query s are fixed throughout; only the key coordinate u (or t) and the feature coordinate vary. The
  per-row quantities (the maximum, the two sums) are computed as [8, 2048] arrays, given a trailing unit axis, and
  spread back along the keys: read at (b, s, u) they are the row's number whatever u is.
-/
import proofs.«132157_j13958643712029_1_alg».proof.Proof.Gen.ReferenceIdeal.Read
import proofs.«132157_j13958643712029_1_alg».proof.Proof.Spec

noncomputable section

open scoped BigOperators

namespace Cert.Attn.Ref

open Idealize.ShloMosaic Idealize.ShloMosaic.ValueIdx Idealize.ShloMosaic.TcCoe Cert.Attn
open Cert.ReferenceIdeal Cert.ReferenceIdeal.Gen Cert.ReferenceIdeal.Read

/-! ## A maximum along the last axis of a rank-3 array -/

/-- Query `n` of batch `p` with the key coordinate `e` put back on the last axis is the entry `(p, n, e)`. -/
theorem lift_last3 {A B K : ℕ} (hR : (⟨3, ![A, B, K]⟩ : Shape).Reduces [2] ⟨2, ![A, B]⟩) (p : Fin A) (n : Fin B)
    (e : Fin K) : hR.lift (ix2 p n) e = ix3 p n e :=
  funext fun a => Fin.ext (by match a with | ⟨0, _⟩ => rfl | ⟨1, _⟩ => rfl | ⟨2, _⟩ => rfl)

/-- The maximum along the last axis of an `[A, B, K]` array, at `(p, n)`: the fold of `max` over `e < K` of the
    entries `(p, n, e)`, started from the initial value. A maximum is commutative and associative, so the order in
    which the entries are met does not matter. -/
theorem hostMax_last3_apply {A B K : ℕ} {u : Shape} (Z : FVec Ideal ⟨3, ![A, B, K]⟩ .f32) (init : FVec Ideal u .f32)
    (h' : (⟨3, ![A, B, K]⟩ : Shape).ReducesTo [2] ⟨2, ![A, B]⟩) (hR : (⟨3, ![A, B, K]⟩ : Shape).Reduces [2] ⟨2, ![A, B]⟩)
    (hu : 0 < u.numel) (p : Fin A) (n : Fin B) :
    Host.reduce FloatOps.maximumf Z init h' hu (ix2 p n)
      = (Finset.univ : Finset (Fin K)).fold max (init (Shape.Idx.first hu)) (fun e => Z (ix3 p n e)) :=
  (Host.reduce_eq_fold_single FloatOps.maximumf Z init h' hR hu (ix2 p n)).trans
    (congrArg ((Finset.univ : Finset (Fin K)).fold max (init (Shape.Idx.first hu)))
      (funext fun e => congrArg Z (lift_last3 hR p n e)))

/-! ## Where each operation reads

  Every operation of the chain reads its operands at indices computed from the index of the result. At a result
  index written by its coordinates these are again indices written by their coordinates; each line below says which. -/

section Indices

variable (b : Fin 8) (s u t : Fin 2048) (e c d : Fin 1024) (o : Fin 1)

/-- A projection at `(b, s, e)` reads its input at `(b, s, c)` … -/
theorem lidx_v1 : lidx_main_v1 (ix3 b s e) c = ix3 b s c := funext fun a => Fin.ext (by match a with | ⟨0, _⟩ => rfl | ⟨1, _⟩ => rfl | ⟨2, _⟩ => rfl)
/-- … and its weight at `(c, e)`. -/
theorem ridx_v1 : ridx_main_v1 (ix3 b s e) c = ix2 c e := funext fun a => Fin.ext (by match a with | ⟨0, _⟩ => rfl | ⟨1, _⟩ => rfl)
theorem lidx_v2 : lidx_main_v2 (ix3 b s e) c = ix3 b s c := funext fun a => Fin.ext (by match a with | ⟨0, _⟩ => rfl | ⟨1, _⟩ => rfl | ⟨2, _⟩ => rfl)
theorem ridx_v2 : ridx_main_v2 (ix3 b s e) c = ix2 c e := funext fun a => Fin.ext (by match a with | ⟨0, _⟩ => rfl | ⟨1, _⟩ => rfl)
theorem lidx_v3 : lidx_main_v3 (ix3 b s e) c = ix3 b s c := funext fun a => Fin.ext (by match a with | ⟨0, _⟩ => rfl | ⟨1, _⟩ => rfl | ⟨2, _⟩ => rfl)
theorem ridx_v3 : ridx_main_v3 (ix3 b s e) c = ix2 c e := funext fun a => Fin.ext (by match a with | ⟨0, _⟩ => rfl | ⟨1, _⟩ => rfl)
/-- The score of query `s` against key `u` reads the query's feature `c` … -/
theorem lidx_v4 : lidx_main_v4 (ix3 b s u) c = ix3 b s c := funext fun a => Fin.ext (by match a with | ⟨0, _⟩ => rfl | ⟨1, _⟩ => rfl | ⟨2, _⟩ => rfl)
/-- … and the key's feature `c`: both operands are contracted along their features. -/
theorem ridx_v4 : ridx_main_v4 (ix3 b s u) c = ix3 b u c := funext fun a => Fin.ext (by match a with | ⟨0, _⟩ => rfl | ⟨1, _⟩ => rfl | ⟨2, _⟩ => rfl)
/-- A per-row array given a trailing unit axis reads, at `(b, s, o)`, the row's entry `(b, s)`. -/
theorem idx_v12 : idx_main_v12 (ix3 b s o) = ix2 b s := funext fun a => Fin.ext (by match a with | ⟨0, _⟩ => rfl | ⟨1, _⟩ => rfl)
theorem idx_v17 : idx_main_v17 (ix3 b s o) = ix2 b s := funext fun a => Fin.ext (by match a with | ⟨0, _⟩ => rfl | ⟨1, _⟩ => rfl)
theorem idx_v22 : idx_main_v22 (ix3 b s o) = ix2 b s := funext fun a => Fin.ext (by match a with | ⟨0, _⟩ => rfl | ⟨1, _⟩ => rfl)
/-- A `[8, 2048, 1]` array spread along the keys reads, at `(b, s, u)`, its entry `(b, s, 0)` whatever `u` is. -/
theorem idx_v13 : idx_main_v13 (ix3 b s u) = ix3 b s (0 : Fin 1) := funext fun a => Fin.ext (by match a with | ⟨0, _⟩ => rfl | ⟨1, _⟩ => rfl | ⟨2, _⟩ => rfl)
theorem idx_v18 : idx_main_v18 (ix3 b s u) = ix3 b s (0 : Fin 1) := funext fun a => Fin.ext (by match a with | ⟨0, _⟩ => rfl | ⟨1, _⟩ => rfl | ⟨2, _⟩ => rfl)
theorem idx_v25 : idx_main_v25 (ix3 b s u) = ix3 b s (0 : Fin 1) := funext fun a => Fin.ext (by match a with | ⟨0, _⟩ => rfl | ⟨1, _⟩ => rfl | ⟨2, _⟩ => rfl)
/-- A sum along the keys reads, for the row `(b, s)` and the key `u`, the entry `(b, s, u)`. -/
theorem idx_v16 : idx_main_v16 (ix2 b s) u = ix3 b s u := funext fun a => Fin.ext (by match a with | ⟨0, _⟩ => rfl | ⟨1, _⟩ => rfl | ⟨2, _⟩ => rfl)
theorem idx_v21 : idx_main_v21 (ix2 b s) u = ix3 b s u := funext fun a => Fin.ext (by match a with | ⟨0, _⟩ => rfl | ⟨1, _⟩ => rfl | ⟨2, _⟩ => rfl)
/-- The output at `(b, s, d)` reads the weight of key `t` for query `s` … -/
theorem lidx_v27 : lidx_main_v27 (ix3 b s d) t = ix3 b s t := funext fun a => Fin.ext (by match a with | ⟨0, _⟩ => rfl | ⟨1, _⟩ => rfl | ⟨2, _⟩ => rfl)
/-- … and feature `d` of the value row `t`. -/
theorem ridx_v27 : ridx_main_v27 (ix3 b s d) t = ix3 b t d := funext fun a => Fin.ext (by match a with | ⟨0, _⟩ => rfl | ⟨1, _⟩ => rfl | ⟨2, _⟩ => rfl)

end Indices

section Stages

variable (x0 : (⟨S8x2048x1024, .f32⟩ : BufTy).Contents (Elt Ideal))
  (x1 : (⟨S8x2048x2048, .i32⟩ : BufTy).Contents (Elt Ideal))
  (x2 x3 x4 : (⟨S1024x1024, .f32⟩ : BufTy).Contents (Elt Ideal))
  (b : Fin 8) (s : Fin 2048)

/-- The mask's row for query `s` of batch `b`, each integer read as a float. -/
abbrev maskRow : Fin 2048 → EReal := fun u => FloatOps.sitofp (F := Ideal) .f32 (x1 (ix3 b s u))

/-- The scaled, masked scores of query `s` of batch `b` against every key of the batch. -/
abbrev scoreRow : Fin 2048 → EReal :=
  scores rScale (fun e => proj x0 x2 b s e) (fun u e => proj x0 x3 b u e) (maskRow x1 b s)

/-! ## The projections -/

/-- The query projection at `(b, s, e)`: the sum over the input features `c` of `x (b, s, c) · W_q (c, e)`. -/
theorem q_apply (e : Fin 1024) : val_main_v1 (F := Ideal) x0 x2 (ix3 b s e) = proj x0 x2 b s e :=
  (val_main_v1_apply x0 x2 (ix3 b s e)).trans (Finset.sum_congr rfl fun c _ =>
    congrArg₂ (· * ·) (congrArg x0 (lidx_v1 b s e c)) (congrArg x2 (ridx_v1 b s e c)))

/-- The key projection at `(b, u, e)`. -/
theorem k_apply (u : Fin 2048) (e : Fin 1024) : val_main_v2 (F := Ideal) x0 x3 (ix3 b u e) = proj x0 x3 b u e :=
  (val_main_v2_apply x0 x3 (ix3 b u e)).trans (Finset.sum_congr rfl fun c _ =>
    congrArg₂ (· * ·) (congrArg x0 (lidx_v2 b u e c)) (congrArg x3 (ridx_v2 b u e c)))

/-- The value projection at `(b, t, d)`. -/
theorem v_apply (t : Fin 2048) (d : Fin 1024) : val_main_v3 (F := Ideal) x0 x4 (ix3 b t d) = proj x0 x4 b t d :=
  (val_main_v3_apply x0 x4 (ix3 b t d)).trans (Finset.sum_congr rfl fun c _ =>
    congrArg₂ (· * ·) (congrArg x0 (lidx_v3 b t d c)) (congrArg x4 (ridx_v3 b t d c)))

/-! ## The scores -/

/-- The raw score of query `s` against key `u`: the sum over the features of `q (b, s, e) · k (b, u, e)`. -/
theorem qk_apply (u : Fin 2048) :
    val_main_v4 (F := Ideal) x0 x2 x3 (ix3 b s u) = ∑ e : Fin 1024, proj x0 x2 b s e * proj x0 x3 b u e :=
  (val_main_v4_apply x0 x2 x3 (ix3 b s u)).trans (Finset.sum_congr rfl fun e _ =>
    congrArg₂ (· * ·)
      ((congrArg (val_main_v1 (F := Ideal) x0 x2) (lidx_v4 b s u e)).trans (q_apply x0 x2 b s e))
      ((congrArg (val_main_v2 (F := Ideal) x0 x3) (ridx_v4 b s u e)).trans (k_apply x0 x3 b u e)))

/-- The divisor of the scores is the same number at every entry: the square root of the float `1024`. -/
theorem sqrt_apply (i : S8x2048x2048.Idx) :
    val_main_v6 (F := Ideal) i = Ideal.sqrt (Ideal.ofBits .f32 0x44800000#32) :=
  val_main_v6_apply i

/-- The scaled, masked score at `(b, s, u)`: the raw score divided by `√1024`, times the mask. -/
theorem score_apply (u : Fin 2048) :
    val_main_v8 (F := Ideal) x0 x1 x2 x3 (ix3 b s u) = scoreRow x0 x1 x2 x3 b s u := by
  -- the quotient and the product are entrywise: the entry is the quotient of the entries times the mask's entry
  rw [val_main_v8_apply, val_main_v7_apply, qk_apply, sqrt_apply]
  -- what is left is the definition of a score, with the quotient by √1024 as its scaling
  rfl

/-! ## The row maximum -/

/-- The maximum of the scores of row `(b, s)`, folded from −∞, is the row maximum of the score row. -/
theorem max_apply :
    val_main_v9 (F := Ideal) x0 x1 x2 x3 (ix2 b s) = rowMax (scoreRow x0 x1 x2 x3 b s) :=
  (hostMax_last3_apply (val_main_v8 (F := Ideal) x0 x1 x2 x3) (val_main_cst_0 (F := Ideal))
      reducesTo_S8x2048x2048_S8x2048_d2 (by decide) h_S_ b s).trans
    (congrArg ((Finset.univ : Finset (Fin 2048)).fold max (Ideal.ofBits .f32 0xFF800000#32))
      (funext fun u => score_apply x0 x1 x2 x3 b s u))

/-- The array the reference compares the maximum with holds −∞ at every entry. -/
theorem negInf_apply (i : S8x2048.Idx) : val_main_v10 (F := Ideal) i = Ideal.ofBits .f32 0xFF800000#32 :=
  val_main_v10_apply i

/-- The reference takes the maximum once more against −∞: that changes nothing, the fold started there. -/
theorem max'_apply :
    val_main_v11 (F := Ideal) x0 x1 x2 x3 (ix2 b s) = rowMax (scoreRow x0 x1 x2 x3 b s) := by
  -- the maximum is entrywise: max (−∞) M, with M the row maximum
  rw [val_main_v11_apply, negInf_apply, max_apply]
  exact max_negInf_rowMax _

/-- Spread back along the keys, the row maximum is the same number at every key `u`. -/
theorem maxB_apply (u : Fin 2048) :
    val_main_v13 (F := Ideal) x0 x1 x2 x3 (ix3 b s u) = rowMax (scoreRow x0 x1 x2 x3 b s) := by
  -- (b, s, u) reads (b, s, 0) of the array with a unit axis, which reads (b, s) of the row maxima
  rw [val_main_v13_apply, idx_v13, val_main_v12_apply, idx_v12, max'_apply]

/-! ## The shifted exponentials and their sum -/

/-- The exponential of the score shifted by the row maximum. -/
theorem exp_apply (u : Fin 2048) :
    val_main_v15 (F := Ideal) x0 x1 x2 x3 (ix3 b s u) = expShift (scoreRow x0 x1 x2 x3 b s) u := by
  -- the exponential and the difference are entrywise
  rw [val_main_v15_apply, val_main_v14_apply, score_apply, maxB_apply]
  -- exp (z_u − M): the definition of the shifted exponential
  rfl

/-- The sum of the shifted exponentials of row `(b, s)`: the sum is started from the float zero, which is 0. -/
theorem sumExp_apply :
    val_main_v16 (F := Ideal) x0 x1 x2 x3 (ix2 b s) = ∑ u : Fin 2048, expShift (scoreRow x0 x1 x2 x3 b s) u := by
  -- initial value + ∑ over the keys; the initial value is the float zero, 0, and 0 + x = x
  rw [val_main_v16_apply, val_main_cst_2_apply, Ideal.ofBits_def, Ideal.ofBits_zero_f32, zero_add]
  -- term by term: the summed entry for key u is (b, s, u)
  exact Finset.sum_congr rfl fun u _ =>
    (congrArg (val_main_v15 (F := Ideal) x0 x1 x2 x3) (idx_v16 b s u)).trans (exp_apply x0 x1 x2 x3 b s u)

/-- Spread back along the keys, that sum is the same number at every key `u`. -/
theorem sumExpB_apply (u : Fin 2048) :
    val_main_v18 (F := Ideal) x0 x1 x2 x3 (ix3 b s u) = ∑ w : Fin 2048, expShift (scoreRow x0 x1 x2 x3 b s) w := by
  -- (b, s, u) reads (b, s, 0) of the array with a unit axis, which reads (b, s) of the row sums
  rw [val_main_v18_apply, idx_v18, val_main_v17_apply, idx_v17, sumExp_apply]

/-! ## The softmax, masked again, and its sum -/

/-- The shifted exponential divided by the row's sum of them, times the mask. -/
theorem remasked_apply (u : Fin 2048) :
    val_main_v20 (F := Ideal) x0 x1 x2 x3 (ix3 b s u) = remasked (scoreRow x0 x1 x2 x3 b s) (maskRow x1 b s) u := by
  -- the quotient and the product are entrywise
  rw [val_main_v20_apply, val_main_v19_apply, exp_apply, sumExpB_apply]
  -- e_u / (∑ e_•) · μ_u: the definition of the re-masked softmax
  rfl

/-- The sum of the re-masked softmax of row `(b, s)`, again started from the float zero. -/
theorem sumRemasked_apply :
    val_main_v21 (F := Ideal) x0 x1 x2 x3 (ix2 b s)
      = ∑ u : Fin 2048, remasked (scoreRow x0 x1 x2 x3 b s) (maskRow x1 b s) u := by
  rw [val_main_v21_apply, val_main_cst_3_apply, Ideal.ofBits_def, Ideal.ofBits_zero_f32, zero_add]
  -- term by term: the summed entry for key u is (b, s, u)
  exact Finset.sum_congr rfl fun u _ =>
    (congrArg (val_main_v20 (F := Ideal) x0 x1 x2 x3) (idx_v21 b s u)).trans (remasked_apply x0 x1 x2 x3 b s u)

/-- The array added to the row sums holds ε at every entry. -/
theorem eps_apply (i : S8x2048x1.Idx) : val_main_v23 (F := Ideal) i = eps := val_main_v23_apply i

/-- The denominator of the renormalisation, spread along the keys: the row's sum plus ε, at every key `u`. -/
theorem denom_apply (u : Fin 2048) :
    val_main_v25 (F := Ideal) x0 x1 x2 x3 (ix3 b s u)
      = (∑ w : Fin 2048, remasked (scoreRow x0 x1 x2 x3 b s) (maskRow x1 b s) w) + eps := by
  -- the sum with ε is entrywise, on the row sums given a unit axis
  rw [val_main_v25_apply, idx_v25, val_main_v24_apply, val_main_v22_apply, idx_v22, sumRemasked_apply, eps_apply]
  -- the float sum of two extended reals is their sum
  rfl

/-! ## The weights and the output -/

/-- The re-masked softmax divided by its row sum plus ε. -/
theorem weights_apply (u : Fin 2048) :
    val_main_v26 (F := Ideal) x0 x1 x2 x3 (ix3 b s u)
      = weights eps (scoreRow x0 x1 x2 x3 b s) (maskRow x1 b s) u := by
  rw [val_main_v26_apply, remasked_apply, denom_apply]
  -- s_u / (∑ s_• + ε): the definition of the weights
  rfl

end Stages

/-- The reference's output at `(b, s, d)` is masked attention of query row `s` of batch `b`: the sum over the keys
    `t` of the weight of `t` times feature `d` of the value row `t`. -/
theorem out_apply
    (x0 : (⟨Cert.ReferenceIdeal.S8x2048x1024, .f32⟩ : BufTy).Contents (Elt Ideal))
    (x1 : (⟨Cert.ReferenceIdeal.S8x2048x2048, .i32⟩ : BufTy).Contents (Elt Ideal))
    (x2 x3 x4 : (⟨Cert.ReferenceIdeal.S1024x1024, .f32⟩ : BufTy).Contents (Elt Ideal))
    (b : Fin 8) (s : Fin 2048) (d : Fin 1024) :
    Cert.ReferenceIdeal.Read.val_main_v27 (F := Ideal) x0 x1 x2 x3 x4 (ix3 b s d)
      = attendRow rScale eps
          (fun e => proj x0 x2 b s e)
          (fun u e => proj x0 x3 b u e)
          (fun t e => proj x0 x4 b t e)
          (fun u => FloatOps.sitofp (F := Ideal) .f32 (x1 (ix3 b s u))) d :=
  (val_main_v27_apply x0 x1 x2 x3 x4 (ix3 b s d)).trans (Finset.sum_congr rfl fun t _ =>
    congrArg₂ (· * ·)
      ((congrArg (val_main_v26 (F := Ideal) x0 x1 x2 x3) (lidx_v27 b s t d)).trans (weights_apply x0 x1 x2 x3 b s t))
      ((congrArg (val_main_v3 (F := Ideal) x0 x4) (ridx_v27 b s t d)).trans (v_apply x0 x4 b t d)))

end Cert.Attn.Ref

end
-- ==== Proof.Claims.lean ====
/-
  The five claims.

  The three frames: the two kernels' are the generated frame certificates; the reference has no tiled region, and its
  frame is its run with the result forgotten. The idealization rewrote nothing, so `preserves` is trivial.

  The algebraic claim. The idealized kernel's run ends with its result array at one function of the arguments,
  `OutV.result`: entry `(b, s, d)` is the masked attention of the projected query row `s` of batch `b` against the
  projected keys and values of that batch, the scores scaled by a PRODUCT with the float 2⁻⁵. The reference's run
  ends with its result at the same expression with the scores scaled by a QUOTIENT by the square root of the float
  1024 (`Ref.out_apply`). The two scalings are one function of every extended real (`kScale_eq_rScale`), so from
  memories that agree on the arguments the two results are equal. No finiteness of the inputs is used.
-/
import proofs.«132157_j13958643712029_1_alg».proof.Defs
import proofs.«132157_j13958643712029_1_alg».proof.Proof.Gen.Kernel.Frame
import proofs.«132157_j13958643712029_1_alg».proof.Proof.Gen.KernelIdeal.Frame
import proofs.«132157_j13958643712029_1_alg».proof.Proof.Gen.Pre_finite_inputs
import proofs.«132157_j13958643712029_1_alg».proof.Proof.Gen.ReferenceIdeal.Run
import proofs.«132157_j13958643712029_1_alg».proof.Proof.Gen.ReferenceIdeal.Read
import proofs.«132157_j13958643712029_1_alg».proof.Proof.Run
import proofs.«132157_j13958643712029_1_alg».proof.Proof.KernelValue
import proofs.«132157_j13958643712029_1_alg».proof.Proof.RefRow

noncomputable section

namespace Cert.Proof.Claims

open Idealize.ShloMosaic Idealize.ShloMosaic.TcCoe Idealize.ShloMosaic.ValueIdx Idealize.SL.Sem Cert.Attn

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The reference's result, as a function of its arguments, is the kernel's function `OutV.result`: entry by entry
    both are one row of masked attention over the same projections, and the two score scalings agree. -/
theorem ref_result
    (x0 : (⟨Cert.ReferenceIdeal.S8x2048x1024, .f32⟩ : BufTy).Contents (Elt Ideal))
    (x1 : (⟨Cert.ReferenceIdeal.S8x2048x2048, .i32⟩ : BufTy).Contents (Elt Ideal))
    (x2 x3 x4 : (⟨Cert.ReferenceIdeal.S1024x1024, .f32⟩ : BufTy).Contents (Elt Ideal)) :
    Cert.ReferenceIdeal.Read.val_main_v27 (F := Ideal) x0 x1 x2 x3 x4 = Cert.KernelIdeal.OutV.result x0 x1 x2 x3 x4 := by
  funext i
  refine (congrArg (Cert.ReferenceIdeal.Read.val_main_v27 (F := Ideal) x0 x1 x2 x3 x4) (eq_ix3 i)).trans ?_
  refine (Cert.Attn.Ref.out_apply x0 x1 x2 x3 x4 (i 0) (i 1) (i 2)).trans ?_
  unfold Cert.KernelIdeal.OutV.result
  rw [kScale_eq_rScale]

/-- From memories agreeing on the arguments both idealized programs run, and end with equal results. -/
theorem algebraic : Cert.algebraic_KernelIdeal_ReferenceIdeal := by
  intro m ρ m' ρ' _ hagree
  refine ⟨fun c => Cert.KernelIdeal.Gen.W4 m ρ c (Proc.devRef .tc Cert.KernelIdeal.main_v8),
    Cert.KernelIdeal.RunV.run_main (F := Ideal) m ρ, ?_⟩
  refine (θ_run Cert.ReferenceIdeal.defs _ _).mono (fun r h c => ⟨(h c).1.trans ?_, (h c).2⟩)
    (Cert.ReferenceIdeal.Value.run (F := Ideal) m' ρ')
  obtain ⟨a0, a1, a2, a3, a4⟩ := hagree c
  refine ((Cert.ReferenceIdeal.Read.val_main_v27_eq m' c).trans (ref_result _ _ _ _ _)).trans ?_
  rw [a0, a1, a2, a3, a4]
  exact (Cert.KernelIdeal.OutV.result_eq m ρ c).symm

end Cert.Proof.Claims

end
-- ==== Proof.lean ====
/-
  The certificate: `Cert.Claim`, the conjunction of the three frames, the idealization's soundness and the algebraic
  equivalence of the idealized kernel and the idealized reference (a QKV projection followed by a masked attention,
  on the extended reals). The witnesses of the programs' stated side conditions come first; the five claims are
  proved in Proof/Claims.lean.
-/
import proofs.«132157_j13958643712029_1_alg».proof.Defs
import proofs.«132157_j13958643712029_1_alg».proof.Proof.Gen.Kernel
import proofs.«132157_j13958643712029_1_alg».proof.Proof.Gen.Kernel.Skeleton
import proofs.«132157_j13958643712029_1_alg».proof.Proof.Gen.Kernel.Launch
import proofs.«132157_j13958643712029_1_alg».proof.Proof.Gen.Kernel.Points
import proofs.«132157_j13958643712029_1_alg».proof.Proof.Gen.Kernel.Frame
import proofs.«132157_j13958643712029_1_alg».proof.Proof.Gen.KernelIdeal
import proofs.«132157_j13958643712029_1_alg».proof.Proof.Gen.KernelIdeal.Skeleton
import proofs.«132157_j13958643712029_1_alg».proof.Proof.Gen.KernelIdeal.Launch
import proofs.«132157_j13958643712029_1_alg».proof.Proof.Gen.KernelIdeal.Points
import proofs.«132157_j13958643712029_1_alg».proof.Proof.Gen.KernelIdeal.Frame
import proofs.«132157_j13958643712029_1_alg».proof.Proof.Gen.ReferenceIdeal
import proofs.«132157_j13958643712029_1_alg».proof.Proof.Gen.Pre_finite_inputs
import proofs.«132157_j13958643712029_1_alg».proof.Proof.Gen.ReferenceIdeal.Run
import proofs.«132157_j13958643712029_1_alg».proof.Proof.Gen.ReferenceIdeal.Read
import proofs.«132157_j13958643712029_1_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
